-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S524288x64 : Shape := ⟨2, ![524288, 64]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_

variable [Facts]

def fn {F : FTy → Type} [FloatOps F] (main_arg0 : FVec F S128x64 .f32) (main_arg1 : FVec F S524288x64 .f32) (main_arg2 : FVec F S524288x64 .f32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S524288x64 .f32 := Host.absf main_arg2
  let main_cst_2 : FVec F S_ .f32 := constant S_ .f32 0x7F800000#32
  let main_v10 : FVec F S524288x64 .f32 := broadcastInDim S524288x64 ![] bcast_S_S524288x64 main_cst_2
  let main_v11 : IVec S524288x64 1 := cmpf .olt main_v9 main_v10
  let main_c_3 : IVec S_ 1 := constantI S_ 1 1#1
  let main_v12 : IVec S_ 1 := (fun x v => Host.reduce IntOp.andi x v reducesTo_S524288x64_S_d0_1 h_S_) main_v11 main_c_3
  let main_v13 : IVec S_ 1 := andi main_v8 main_v12
  main_v13
-- ==== Kernel.lean ====
abbrev S128x64 : Shape := ⟨2, ![128, 64]⟩
abbrev S524288x64 : Shape := ⟨2, ![524288, 64]⟩
abbrev S64x524288 : Shape := ⟨2, ![64, 524288]⟩
abbrev S64x16384 : Shape := ⟨2, ![64, 16384]⟩
abbrev S128x128 : Shape := ⟨2, ![128, 128]⟩
abbrev S128x16384 : Shape := ⟨2, ![128, 16384]⟩
abbrev S128 : Shape := ⟨1, ![128]⟩
abbrev S128x1 : Shape := ⟨2, ![128, 1]⟩

abbrev nBuf : Space → Nat
  | .hbm => 6
  | .vmem => 13
  | .smem => 0
  | _ => 0

abbrev bufTy : (tb : Table) → Fin (tcTables nBuf tb) → BufTy
  | .hbm, ⟨0, _⟩ => ⟨S128x64, .f32⟩
  | .hbm, ⟨1, _⟩ => ⟨S524288x64, .f32⟩
  | .hbm, ⟨2, _⟩ => ⟨S524288x64, .f32⟩
  | .hbm, ⟨3, _⟩ => ⟨S64x524288, .f32⟩
  | .hbm, ⟨4, _⟩ => ⟨S64x524288, .f32⟩
  | .hbm, ⟨5, _⟩ => ⟨S128x64, .f32⟩
  | .local _ .vmem, ⟨0, _⟩ => ⟨S128x64, .f32⟩
  | .local _ .vmem, ⟨1, _⟩ => ⟨S64x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | .local _ .vmem, ⟨6, _⟩ => ⟨S64x16384, .f32⟩
  | .local _ .vmem, ⟨7, _⟩ => ⟨S64x16384, .f32⟩
  | .local _ .vmem, ⟨8, _⟩ => ⟨S64x16384, .f32⟩
  | .local _ .vmem, ⟨9, _⟩ => ⟨S128x64, .f32⟩
  | .local _ .vmem, ⟨10, _⟩ => ⟨S128x128, .f32⟩
  | .local _ .vmem, ⟨11, _⟩ => ⟨S128x128, .f32⟩
  | .local _ .vmem, ⟨12, _⟩ => ⟨S128x64, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v58 : BitVec 1 := Scalar.cmpi .eq arg0 c15_i32
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S524288x64_S64x524288_1_0 : S524288x64.Transposes [1, 0] S64x524288
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  reduces_S128x16384_S128 : S128x16384.Reduces [1] S128
  shapeCasts_S128_S128x1 : S128.ShapeCasts S128x1
  broadcasts_S128x1_S128x128 : S128x1.Broadcasts S128x128
  slices_S128x128_o0_0_S128x1 : S128x128.Slices ![0, 0] S128x1
  broadcasts_S128x1_S128x16384 : S128x1.Broadcasts S128x16384
  broadcasts_S128x1_S128x64 : S128x1.Broadcasts S128x64
  dot_S128x64_S64x16384_S128x16384_1_0_0_1_n_n_wf : DotDims.WF S128x64 S64x16384 S128x16384 [1] [0] [0] [1] [] []
  dot_S128x16384_S64x16384_S128x64_1_1_0_0_n_n_wf : DotDims.WF S128x16384 S64x16384 S128x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S128x64.size a
  hwx0_0 : ∀ i : grid0.Coords, EltTy.bits .f32 = 32 ∨ (Rect.block (s := S128x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S64x524288.size a
  hwx0_1 : ∀ i : grid0.Coords, EltTy.bits .f32 = 32 ∨ (Rect.block (s := S64x524288) S64x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x524288.size a
  hwx0_2 : ∀ i : grid0.Coords, EltTy.bits .f32 = 32 ∨ (Rect.block (s := S64x524288) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x16384.size a ≤ S64x524288.size a
  hwx0_3 : ∀ i : grid0.Coords, EltTy.bits .f32 = 32 ∨ (Rect.block (s := S64x524288) S64x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x16384.size a ≤ S64x524288.size a
  hwx0_4 : ∀ i : grid0.Coords, EltTy.bits .f32 = 32 ∨ (Rect.block (s := S64x524288) S64x16384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def dot_S128x16384_S64x16384_S128x64_1_1_0_0_n_n : DotDims S128x16384 S64x16384 S128x64 where
  lhsContracting := [1]
  rhsContracting := [1]
  lhsNonContracting := [0]
  rhsNonContracting := [0]
  lhsBatch := []
  rhsBatch := []
  wf := dot_S128x16384_S64x16384_S128x64_1_1_0_0_n_n_wf

abbrev win0_0 : Pipeline.Window sig grid0 :=
  Pipeline.Window.ofSpec (Memref.whole main_arg0) S128x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S128x64 : Shape := ⟨2, ![128, 64]⟩
abbrev S524288x64 : Shape := ⟨2, ![524288, 64]⟩
abbrev S64x524288 : Shape := ⟨2, ![64, 524288]⟩
abbrev S128x524288 : Shape := ⟨2, ![128, 524288]⟩
abbrev S_ : Shape := ⟨0, ![]⟩
abbrev S128 : Shape := ⟨1, ![128]⟩
abbrev S128x1 : Shape := ⟨2, ![128, 1]⟩

abbrev nBuf : Space → Nat
  | .hbm => 23
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S524288x64, .f32⟩
  | .hbm, ⟨2, _⟩ => ⟨S524288x64, .f32⟩
  | .hbm, ⟨3, _⟩ => ⟨S64x524288, .f32⟩
  | .hbm, ⟨4, _⟩ => ⟨S128x524288, .f32⟩
  | .hbm, ⟨5, _⟩ => ⟨S_, .f32⟩
  | .hbm, ⟨6, _⟩ => ⟨S128x524288, .f32⟩
  | .hbm, ⟨7, _⟩ => ⟨S128x524288, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S128x524288, .f32⟩
  | .hbm, ⟨15, _⟩ => ⟨S128x524288, .f32⟩
  | .hbm, ⟨16, _⟩ => ⟨S128x524288, .f32⟩
  | .hbm, ⟨17, _⟩ => ⟨S_, .f32⟩
  | .hbm, ⟨18, _⟩ => ⟨S128, .f32⟩
  | .hbm, ⟨19, _⟩ => ⟨S128x1, .f32⟩
  | .hbm, ⟨20, _⟩ => ⟨S128x524288, .f32⟩
  | .hbm, ⟨21, _⟩ => ⟨S128x524288, .f32⟩
  | .hbm, ⟨22, _⟩ => ⟨S128x64, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  transposes_S524288x64_S64x524288_1_0 : S524288x64.Transposes [1, 0] S64x524288
  bcast_S_S128x524288 : S_.BroadcastsInDim S128x524288 (![] : Fin 0 → Fin S128x524288.rank)
  reducesTo_S128x524288_S128_d1 : S128x524288.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x524288_0_1 : S128x1.BroadcastsInDim S128x524288 (![0, 1] : Fin 2 → Fin S128x524288.rank)
  dot_S128x64_S64x524288_S128x524288_1_0_0_1_n_n_wf : DotDims.WF S128x64 S64x524288 S128x524288 [1] [0] [0] [1] [] []
  dot_S128x524288_S524288x64_S128x64_1_0_0_1_n_n_wf : DotDims.WF S128x524288 S524288x64 S128x64 [1] [0] [0] [1] [] []

variable [Facts₀]

def dot_S128x64_S64x524288_S128x524288_1_0_0_1_n_n : DotDims S128x64 S64x524288 S128x524288 where
  lhsContracting := [1]
  rhsContracting := [0]
  lhsNonContracting := [0]
  rhsNonContracting := [1]
  lhsBatch := []
  rhsBatch := []
  wf := dot_S128x64_S64x524288_S128x524288_1_0_0_1_n_n_wf
def dot_S128x524288_S524288x64_S128x64_1_0_0_1_n_n : DotDims S128x524288 S524288x64 S128x64 where
  lhsContracting := [1]
  rhsContracting := [0]
  lhsNonContracting := [0]
  rhsNonContracting := [1]
  lhsBatch := []
  rhsBatch := []
  wf := dot_S128x524288_S524288x64_S128x64_1_0_0_1_n_n_wf

class Facts : Prop extends Facts₀ where

variable [Facts]
-- ==== Proof.K.Runs.lean ====
/-
  What the three control cases of the kernel body, and the run assembled from them, are stated over.
  The program is two transposes of the key and value arrays, then one region of sixteen grid points. At point t the
  body receives the query block, columns [16384 t, 16384 (t+1)) and [16384 (t+16), 16384 (t+17)) of the transposed
  keys, and the same two column ranges of the transposed values; it keeps a running row maximum, a running
  normaliser and a running weighted sum in three scratch buffers, resets them at point 0 and divides at point 15.
-/
import proofs.«178308_g83365315215904_cont_9to1c4b_190_37_alg».proof.Proof.Gen.Kernel.Launch
import proofs.«178308_g83365315215904_cont_9to1c4b_190_37_alg».proof.Proof.Gen.Kernel.Skeleton
import proofs.«178308_g83365315215904_cont_9to1c4b_190_37_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the launch contents after the two transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two transposes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two transposes before the region write only their own results: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two transposes before the region write only their own results: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two transposes before the region write only their own results: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether or not the
    block was fetched at that point: an unfetched point has the block index of the point before it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point, whether or not the
    block was fetched at that point: an unfetched point has the block index of the point before it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point, whether or not the
    block was fetched at that point: an unfetched point has the block index of the point before it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every grid point, whether or not the
    block was fetched at that point: an unfetched point has the block index of the point before it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every grid point, whether or not the
    block was fetched at that point: an unfetched point has the block index of the point before it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body -/

/-- The reset branch is taken exactly when the grid coordinate is 0 -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- and the final division exactly when it is 15. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the body stores nothing into the output window, and its block is not written back there. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it stores the quotient. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x16384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
/-- The running maximum, the running normaliser and the running weighted sum. -/
abbrev scM0_0 : Memref sig .tc .vmem S128x128 .f32 := Memref.whole cc0_scratch0
abbrev scM0_1 : Memref sig .tc .vmem S128x128 .f32 := Memref.whole cc0_scratch1
abbrev scM0_2 : Memref sig .tc .vmem S128x64 .f32 := Memref.whole cc0_scratch2
abbrev VS0_0 : View sig .tc .vmem S128x128 .f32 := scM0_0.view
abbrev VS0_1 : View sig .tc .vmem S128x128 .f32 := scM0_1.view
abbrev VS0_2 : View sig .tc .vmem S128x64 .f32 := scM0_2.view
/-- One staging buffer of the output window, through which its contents are stated. -/
abbrev VO0_5 : View sig .tc .vmem S128x64 .f32 := (Memref.whole cc0_stg5_0 : Memref sig .tc .vmem S128x64 .f32).view

/-- The core's scoped buffers outside the staging buffers are the three scratch buffers, each owned whole. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Hand

end
-- ==== Proof.K.RunA.lean ====
/-
  The kernel body run from beginning to end in one of its three control cases. At the first grid point the reset branch is taken and the division is not: the three scratch buffers arrive holding anything and are overwritten before they are read.
  The result names, for every buffer the body stores into, the pieces it ends with.
-/
import proofs.«178308_g83365315215904_cont_9to1c4b_190_37_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents, the output buffer at given contents and the scratch buffers at anything, it runs to any continuation that accepts the inputs and the output unchanged and each stored-into buffer with its pieces written. -/
noncomputable def kernelRun0_A (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : cond0_0 i) (hc1 : ¬cond0_1 i)
    (x0 : Vec F S128x64 .f32) (x1 x2 x3 x4 : Vec F S64x16384 .f32) :
    Σ' (LS0 : List (View.Piece (Elt F) S128x128 .f32)) (LS1 : List (View.Piece (Elt F) S128x128 .f32)), { LS2 : List (View.Piece (Elt F) S128x64 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, fun xi5 E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Hand

end
-- ==== Proof.K.RunB.lean ====
/-
  The kernel body run from beginning to end in one of its three control cases. At a grid point that is neither first nor last neither branch is taken: the three scratch buffers arrive at what the point before left and are each overwritten once.
  The result names, for every buffer the body stores into, the pieces it ends with.
-/
import proofs.«178308_g83365315215904_cont_9to1c4b_190_37_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents, the output buffer at given contents and the scratch buffers at given contents, it runs to any continuation that accepts the inputs and the output unchanged and each stored-into buffer with its pieces written. -/
noncomputable def kernelRun0_B (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : ¬cond0_0 i) (hc1 : ¬cond0_1 i)
    (x0 : Vec F S128x64 .f32) (x1 x2 x3 x4 : Vec F S64x16384 .f32) (xs0 xs1 : Vec F S128x128 .f32) (xs2 : Vec F S128x64 .f32) :
    Σ' (LS0 : List (View.Piece (Elt F) S128x128 .f32)) (LS1 : List (View.Piece (Elt F) S128x128 .f32)), { LS2 : List (View.Piece (Elt F) S128x64 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, fun xi5 E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Hand

end
-- ==== Proof.K.RunC.lean ====
/-
  The kernel body run from beginning to end in one of its three control cases. At the last grid point the reset branch is not taken and the division is: the scratch buffers arrive at what the point before left, and the output buffer receives the quotient.
  The result names, for every buffer the body stores into, the pieces it ends with.
-/
import proofs.«178308_g83365315215904_cont_9to1c4b_190_37_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents and the scratch buffers at given contents, it runs to any continuation that accepts the inputs unchanged and each stored-into buffer with its pieces written. -/
noncomputable def kernelRun0_C (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : ¬cond0_0 i) (hc1 : cond0_1 i)
    (x0 : Vec F S128x64 .f32) (x1 x2 x3 x4 : Vec F S64x16384 .f32) (xs0 xs1 : Vec F S128x128 .f32) (xs2 : Vec F S128x64 .f32) :
    Σ' (L5 : List (View.Piece (Elt F) S128x64 .f32)) (LS0 : List (View.Piece (Elt F) S128x128 .f32)) (LS1 : List (View.Piece (Elt F) S128x128 .f32)), { LS2 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5;
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.Kernel.Hand

end
-- ==== Proof.K.Frame.lean ====
/-
  The region's run, point by point. After grid point n the three scratch buffers hold what the body's case at n
  leaves in them, computed from the point's five input blocks and from what point n - 1 left (`scrAt`); the output
  buffer is stored into at the last point only (`outAt`). The invariant carried from point to point is the three
  scratch buffers at those contents. The key and value arrays are each read through two windows, so each of the
  four windows holds half a share of its array.
-/
import proofs.«178308_g83365315215904_cont_9to1c4b_190_37_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the three scratch buffers: running maximum, running normaliser, running weighted sum. -/
abbrev Scr (F : FTy → Type) [FloatOps F] : Type := Vec F S128x128 .f32 × Vec F S128x128 .f32 × Vec F S128x64 .f32

/-! ## The three cases at a grid point -/

/-- The first point's run, at the point's memrefs and input blocks. -/
def runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t)
/-- A middle point's run, over what the point before left in the scratch buffers. -/
def runB (c : Dev nD) (t : Fin cfg0.N) (h0 : ¬cond0_0 (grid0.coords t)) (h1 : ¬cond0_1 (grid0.coords t)) (s : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t) s.1 s.2.1 s.2.2
/-- The last point's run, over what the point before left in the scratch buffers. -/
def runC (c : Dev nD) (t : Fin cfg0.N) (h0 : ¬cond0_0 (grid0.coords t)) (h1 : cond0_1 (grid0.coords t)) (s : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t) s.1 s.2.1 s.2.2

/-- What each case leaves in the scratch buffers: its pieces read back. -/
def soutA (c : Dev nD) (t : Fin cfg0.N) (h0 : cond0_0 (grid0.coords t)) (h1 : ¬cond0_1 (grid0.coords t)) : Scr F :=
  (VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1))
def soutB (c : Dev nD) (t : Fin cfg0.N) (h0 : ¬cond0_0 (grid0.coords t)) (h1 : ¬cond0_1 (grid0.coords t)) (s : Scr F) : Scr F :=
  (VS0_0.read (Elt F) (VS0_0.writes (Elt F) VS0_0.junk (runB m c t h0 h1 s).1),
   VS0_1.read (Elt F) (VS0_1.writes (Elt F) VS0_1.junk (runB m c t h0 h1 s).2.1),
   VS0_2.read (Elt F) (VS0_2.writes (Elt F) VS0_2.junk (runB m c t h0 h1 s).2.2.1))
def soutC (c : Dev nD) (t : Fin cfg0.N) (h0 : ¬cond0_0 (grid0.coords t)) (h1 : cond0_1 (grid0.coords t)) (s : Scr F) : Scr F :=
  (VS0_0.read (Elt F) (VS0_0.writes (Elt F) VS0_0.junk (runC m c t h0 h1 s).2.1),
   VS0_1.read (Elt F) (VS0_1.writes (Elt F) VS0_1.junk (runC m c t h0 h1 s).2.2.1),
   VS0_2.read (Elt F) (VS0_2.writes (Elt F) VS0_2.junk (runC m c t h0 h1 s).2.2.2.1))
/-- What the last point leaves in the output buffer. -/
def outC (c : Dev nD) (t : Fin cfg0.N) (h0 : ¬cond0_0 (grid0.coords t)) (h1 : cond0_1 (grid0.coords t)) (s : Scr F) : Vec F S128x64 .f32 :=
  VO0_5.read (Elt F) (VO0_5.writes (Elt F) VO0_5.junk (runC m c t h0 h1 s).1)

/-! Each case's pieces tile the buffer they are stored into. -/

theorem scoverA_0 (c t h0 h1) (y : S128x128.Idx) : ∃ pc ∈ (runA m c t h0 h1).1, y ∈ pc.1.set :=
  View.cover_of_tiledL (runA m c t h0 h1).1 S128x128.size (by sl_kernel_rfl) y
theorem scoverA_1 (c t h0 h1) (y : S128x128.Idx) : ∃ pc ∈ (runA m c t h0 h1).2.1, y ∈ pc.1.set :=
  View.cover_of_tiledL (runA m c t h0 h1).2.1 S128x128.size (by sl_kernel_rfl) y
theorem scoverA_2 (c t h0 h1) (y : S128x64.Idx) : ∃ pc ∈ (runA m c t h0 h1).2.2.1, y ∈ pc.1.set :=
  View.cover_of_tiledL (runA m c t h0 h1).2.2.1 S128x64.size (by sl_kernel_rfl) y
theorem scoverB_0 (c t h0 h1) (s : Scr F) (y : S128x128.Idx) : ∃ pc ∈ (runB m c t h0 h1 s).1, y ∈ pc.1.set :=
  View.cover_of_tiledL (runB m c t h0 h1 s).1 S128x128.size (by sl_kernel_rfl) y
theorem scoverB_1 (c t h0 h1) (s : Scr F) (y : S128x128.Idx) : ∃ pc ∈ (runB m c t h0 h1 s).2.1, y ∈ pc.1.set :=
  View.cover_of_tiledL (runB m c t h0 h1 s).2.1 S128x128.size (by sl_kernel_rfl) y
theorem scoverB_2 (c t h0 h1) (s : Scr F) (y : S128x64.Idx) : ∃ pc ∈ (runB m c t h0 h1 s).2.2.1, y ∈ pc.1.set :=
  View.cover_of_tiledL (runB m c t h0 h1 s).2.2.1 S128x64.size (by sl_kernel_rfl) y
theorem coverC_5 (c t h0 h1) (s : Scr F) (y : S128x64.Idx) : ∃ pc ∈ (runC m c t h0 h1 s).1, y ∈ pc.1.set :=
  View.cover_of_tiledL (runC m c t h0 h1 s).1 S128x64.size (by sl_kernel_rfl) y
theorem scoverC_0 (c t h0 h1) (s : Scr F) (y : S128x128.Idx) : ∃ pc ∈ (runC m c t h0 h1 s).2.1, y ∈ pc.1.set :=
  View.cover_of_tiledL (runC m c t h0 h1 s).2.1 S128x128.size (by sl_kernel_rfl) y
theorem scoverC_1 (c t h0 h1) (s : Scr F) (y : S128x128.Idx) : ∃ pc ∈ (runC m c t h0 h1 s).2.2.1, y ∈ pc.1.set :=
  View.cover_of_tiledL (runC m c t h0 h1 s).2.2.1 S128x128.size (by sl_kernel_rfl) y
theorem scoverC_2 (c t h0 h1) (s : Scr F) (y : S128x64.Idx) : ∃ pc ∈ (runC m c t h0 h1 s).2.2.2.1, y ∈ pc.1.set :=
  View.cover_of_tiledL (runC m c t h0 h1 s).2.2.2.1 S128x64.size (by sl_kernel_rfl) y

/-! ## What the scratch buffers hold after each point -/

/-- THE RECURSION: the scratch buffers after the body at position n. -/
def scrAt (c : Dev nD) : (n : ℕ) → n < cfg0.N → Scr F
  | 0, hn => soutA m c ⟨0, hn⟩ ((hcond0_0 ⟨0, hn⟩).mpr rfl) (fun h => (fun h => by (try dsimp only at h); omega) ((hcond0_1 ⟨0, hn⟩).mp h))
  | n + 1, hn =>
    if h1 : n + 1 = 15 then
      soutC m c ⟨n + 1, hn⟩ (fun h => (fun h => by (try dsimp only at h); omega) ((hcond0_0 ⟨n + 1, hn⟩).mp h)) ((hcond0_1 ⟨n + 1, hn⟩).mpr h1) (scrAt c n (Nat.lt_of_succ_lt hn))
    else
      soutB m c ⟨n + 1, hn⟩ (fun h => (fun h => by (try dsimp only at h); omega) ((hcond0_0 ⟨n + 1, hn⟩).mp h)) (fun h => h1 ((hcond0_1 ⟨n + 1, hn⟩).mp h)) (scrAt c n (Nat.lt_of_succ_lt hn))

theorem scrAt_A (c : Dev nD) (t : Fin cfg0.N) (h0 : t.val = 0) (h1 : ¬t.val = 15) :
    scrAt m c t.val t.isLt = soutA m c t ((hcond0_0 t).mpr h0) (fun h => h1 ((hcond0_1 t).mp h)) := by
  obtain ⟨n, hn⟩ := t
  cases n with
  | zero => exact rfl
  | succ n => exact absurd h0 (Nat.succ_ne_zero n)

theorem scrAt_B (c : Dev nD) (t : Fin cfg0.N) (h0 : ¬t.val = 0) (h1 : ¬t.val = 15) :
    scrAt m c t.val t.isLt = soutB m c t (fun h => h0 ((hcond0_0 t).mp h)) (fun h => h1 ((hcond0_1 t).mp h)) (scrAt m c (t.val - 1) (Nat.lt_of_le_of_lt (Nat.sub_le _ _) t.isLt)) := by
  obtain ⟨n, hn⟩ := t
  cases n with
  | zero => exact absurd rfl h0
  | succ n => exact (dif_neg h1).trans rfl

theorem scrAt_C (c : Dev nD) (t : Fin cfg0.N) (h0 : ¬t.val = 0) (h1 : t.val = 15) :
    scrAt m c t.val t.isLt = soutC m c t (fun h => h0 ((hcond0_0 t).mp h)) ((hcond0_1 t).mpr h1) (scrAt m c (t.val - 1) (Nat.lt_of_le_of_lt (Nat.sub_le _ _) t.isLt)) := by
  obtain ⟨n, hn⟩ := t
  cases n with
  | zero => exact absurd rfl h0
  | succ n => exact (dif_pos h1).trans rfl

/-- What the body leaves in the output buffer at point t: the quotient at the last point; elsewhere the buffer is
    not stored into, and this value is not consulted. -/
def outAt (c : Dev nD) (t : Fin cfg0.N) : Vec F S128x64 .f32 :=
  if h1 : t.val = 15 then
    outC m c t (fun h => (fun h => by omega) ((hcond0_0 t).mp h)) ((hcond0_1 t).mpr h1) (scrAt m c (t.val - 1) (Nat.lt_of_le_of_lt (Nat.sub_le _ _) t.isLt))
  else VO0_5.read (Elt F) VO0_5.junk

theorem outAt_C (c : Dev nD) (t : Fin cfg0.N) (h0 : ¬t.val = 0) (h1 : t.val = 15) :
    outAt m c t = outC m c t (fun h => h0 ((hcond0_0 t).mp h)) ((hcond0_1 t).mpr h1) (scrAt m c (t.val - 1) (Nat.lt_of_le_of_lt (Nat.sub_le _ _) t.isLt)) := by
  unfold outAt; exact dif_pos h1

/-! ## The invariant -/

/-- Before the first point the scratch buffers hold anything; before point n + 1 they hold what point n left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (scrAt m c n hn).1 ∗ owns (c : Thread nD τ) scM0_1 fullShare (scrAt m c n hn).2.1 ∗ owns (c : Thread nD τ) scM0_2 fullShare (scrAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare (scrAt m c n hn).1 ∗ owns (c : Thread nD τ) scM0_1 fullShare (scrAt m c n hn).2.1 ∗ owns (c : Thread nD τ) scM0_2 fullShare (scrAt m c n hn).2.2) := rfl

theorem PhiS_pos (c : Dev nD) (n : ℕ) (h : n ≤ cfg0.N) (hz : n ≠ 0) :
    PhiS m c n h = iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) := by
  cases n with
  | zero => exact absurd rfl hz
  | succ n => rfl

/-! ## The proof data -/

/-- On core c: the arrays as the region finds them; after the body each input buffer at its block, the output
    buffer at `outAt`; the invariant `PhiS`; each of the two windows on the transposed keys, and each of the two on the
    transposed values, at half a share of its array; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.Kernel.Hand

end
-- ==== Proof.K.Body.lean ====
/-
  The body obligation: at every grid point, from the invariant and the six staging buffers as the pipeline hands
  them over, the kernel body runs and hands back the invariant at the next point and each buffer at what the proof
  data says it holds. By cases on the point: first, middle, last.
-/
import proofs.«178308_g83365315215904_cont_9to1c4b_190_37_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · have h1 : ¬t.val = 15 := by omega
    rw [Dat.leavesExact_idle (dats m 0 c) 5 t (idleAt0_5 t (fun h => h1 ((hcond0_1 t).mp h))) (noFlush0_5 t (fun h => h1 ((hcond0_1 t).mp h)))]
    rw [scrAt_A m c t h0 h1]
    unfold soutA; (try dsimp only)
    rw [PhiS_castSucc m c t, PhiS_zero m c _ _ h0, scoped0_eq]
    iintro ⟨⟨HS0, HS1, HS2⟩, Ho, ⟨%d0, H0⟩, ⟨%d1, H1⟩, ⟨%d2, H2⟩, ⟨%d3, H3⟩, ⟨%d4, H4⟩, ⟨%d5, H5⟩⟩
    iapply ((runA m c t ((hcond0_0 t).mpr h0) (fun h => h1 ((hcond0_1 t).mp h))).2.2.2 _ Set.univ _)
    ·
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 m c t _ _)
        isplitl [HS1]
        · unfold owns; iexists _; isplitr
          swap; · iexact HS1
          ipureintro; exact View.read_writes_of_cover _ _ _ _ _ (scoverA_1 m c t _ _)
        · unfold owns; iexists _; isplitr
          swap; · iexact HS2
          ipureintro; exact View.read_writes_of_cover _ _ _ _ _ (scoverA_2 m c t _ _)
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val = 15
    · rw [show (dats m 0 c).leavesExact 5 t = owns (c : Thread nD τ) (ms0_5 t) fullShare ((dats m 0 c).after 5 t) from by
        unfold Dat.leavesExact; rw [liveAt0_5 t ((hcond0_1 t).mpr h1)], after0_5, outAt_C m c t h0 h1]
      rw [scrAt_C m c t h0 h1]
      unfold outC soutC; (try dsimp only)
      rw [PhiS_castSucc m c t, PhiS_pos m c _ _ h0]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((runC m c t (fun h => h0 ((hcond0_0 t).mp h)) ((hcond0_1 t).mpr h1) (scrAt m c (t.val - 1) (Nat.lt_of_le_of_lt (Nat.sub_le _ _) t.isLt))).2.2.2.2 Set.univ _)
      ·
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          · unfold owns; iexists _; isplitr
            swap; · iexact HS2
            ipureintro; exact View.read_writes_of_cover _ _ _ _ _ (scoverC_2 m c t _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC_5 m c t _ _ _)
    · rw [Dat.leavesExact_idle (dats m 0 c) 5 t (idleAt0_5 t (fun h => h1 ((hcond0_1 t).mp h))) (noFlush0_5 t (fun h => h1 ((hcond0_1 t).mp h)))]
      rw [scrAt_B m c t h0 h1]
      unfold soutB; (try dsimp only)
      rw [PhiS_castSucc m c t, PhiS_pos m c _ _ h0]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((runB m c t (fun h => h0 ((hcond0_0 t).mp h)) (fun h => h1 ((hcond0_1 t).mp h)) (scrAt m c (t.val - 1) (Nat.lt_of_le_of_lt (Nat.sub_le _ _) t.isLt))).2.2.2 _ Set.univ _)
      ·
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          · unfold owns; iexists _; isplitr
            swap; · iexact HS2
            ipureintro; exact View.read_writes_of_cover _ _ _ _ _ (scoverB_2 m c t _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The region launched: from any memory with zero semaphore counters every weakly fair execution of the program
  terminates without a fault, the result array ends at what the last grid point's write-back leaves in it, and the
  three argument arrays end as they were launched. The transposed key array is handed to two input windows and so
  is the transposed value array: each is split into two half shares, one per window.
-/
import proofs.«178308_g83365315215904_cont_9to1c4b_190_37_alg».proof.Proof.K.Body
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the six windows, each whole at the full share, give every window its array at
    its share: the query array and the result array whole, the transposed keys and the transposed values halved. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  have e1 : (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e1, bigSep_W0]
  have e2 : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) := by
    unfold Pipeline.arrBufs
    exact bigSep_eq_bigSepL_of_eq [main_arg0, main_v0, main_v1, main_v2] (by decide) (by decide) _
  rw [e2]
  iintro ⟨H0, Hk, Hv, Ho⟩
  ihave Hk' := (pointsTo_share (PosShare.mem_left_op_right fullShare)).1 $$ Hk
  icases Hk' with ⟨Hk1, Hk2⟩
  ihave Hv' := (pointsTo_share (PosShare.mem_left_op_right fullShare)).1 $$ Hv
  icases Hv' with ⟨Hv1, Hv2⟩
  isplitl [H0]; · iexact H0
  isplitl [Hk1]; · iexact Hk1
  isplitl [Hk2]; · iexact Hk2
  isplitl [Hv1]; · iexact Hv1
  isplitl [Hv2]; · iexact Hv2
  iexact Ho

/-- Before the first point the invariant is the scratch buffers at anything. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

/-- After the last point the scratch buffers' named contents are forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scoped0_eq]
  iintro ⟨HS0, HS1, HS2⟩
  isplitr; · iempintro
  isplitl [HS0]; · iexists _; iexact HS0
  isplitl [HS1]; · iexists _; iexact HS1
  iexists _; iexact HS2

/-- The buffers the region never touches: the key and value arrays as launched (the windows read their transposes). -/
abbrev restSet : Finset (Ref sig .tc) := (Finset.univ.filter fun b : Ref sig .tc => ¬ b.isScoped) \ Finset.univ.image (Pipeline.arrRef spec0)

set_option backward.isDefEq.respectTransparency.types false in
/-- THE RUN. -/
theorem run_main : θ_run defs (onTc (τ := τ) (main (F := F))) ⟨m, fun _ => 0, ρ⟩ (fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ restSet, s.mem ((c : Thread nD τ).loc b) = V m c b)
    (hY := fun c s' => by
      iintro ⟨-, HU, HSI⟩
      unfold Pipeline.unscopedRest
      imodintro
      iapply (pointsTo_read_all restSet (fun b => (c : Thread nD τ).loc b) (V m c) s')
      isplitl [HU] <;> iassumption)
    (hQ := fun s h c => ⟨(h c).1 5,
      ((h c).1 0).trans (((dats m 0 c).arrAt_in 0 rfl _).trans ((A_eq m c 0).trans (V_main_arg0 m c))),
      ((h c).2 main_arg1 (by decide)).trans (V_main_arg1 m c),
      ((h c).2 main_arg2 (by decide)).trans (V_main_arg2 m c)⟩)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.Kernel.Hand

end
-- ==== Proof.KI.Runs.lean ====
/-
  What the three control cases of the kernel body, and the run assembled from them, are stated over.
  The program is two transposes of the key and value arrays, then one region of sixteen grid points. At point t the
  body receives the query block, columns [16384 t, 16384 (t+1)) and [16384 (t+16), 16384 (t+17)) of the transposed
  keys, and the same two column ranges of the transposed values; it keeps a running row maximum, a running
  normaliser and a running weighted sum in three scratch buffers, resets them at point 0 and divides at point 15.
-/
import proofs.«178308_g83365315215904_cont_9to1c4b_190_37_alg».proof.Proof.Gen.KernelIdeal.Launch
import proofs.«178308_g83365315215904_cont_9to1c4b_190_37_alg».proof.Proof.Gen.KernelIdeal.Skeleton
import proofs.«178308_g83365315215904_cont_9to1c4b_190_37_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- What each buffer of core `c` holds when the region is entered: the launch contents after the two transposes. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two transposes followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The two transposes before the region write only their own results: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two transposes before the region write only their own results: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-- The two transposes before the region write only their own results: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block of the array at every grid point, whether or not the
    block was fetched at that point: an unfetched point has the block index of the point before it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block of the array at every grid point, whether or not the
    block was fetched at that point: an unfetched point has the block index of the point before it. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block of the array at every grid point, whether or not the
    block was fetched at that point: an unfetched point has the block index of the point before it. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block of the array at every grid point, whether or not the
    block was fetched at that point: an unfetched point has the block index of the point before it. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block of the array at every grid point, whether or not the
    block was fetched at that point: an unfetched point has the block index of the point before it. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branches of the body -/

/-- The reset branch is taken exactly when the grid coordinate is 0 -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- and the final division exactly when it is 15. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last point the body stores nothing into the output window, and its block is not written back there. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
/-- At the last point it stores the quotient. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S128x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x16384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x16384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x16384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x16384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
/-- The running maximum, the running normaliser and the running weighted sum. -/
abbrev scM0_0 : Memref sig .tc .vmem S128x128 .f32 := Memref.whole cc0_scratch0
abbrev scM0_1 : Memref sig .tc .vmem S128x128 .f32 := Memref.whole cc0_scratch1
abbrev scM0_2 : Memref sig .tc .vmem S128x64 .f32 := Memref.whole cc0_scratch2
abbrev VS0_0 : View sig .tc .vmem S128x128 .f32 := scM0_0.view
abbrev VS0_1 : View sig .tc .vmem S128x128 .f32 := scM0_1.view
abbrev VS0_2 : View sig .tc .vmem S128x64 .f32 := scM0_2.view
/-- One staging buffer of the output window, through which its contents are stated. -/
abbrev VO0_5 : View sig .tc .vmem S128x64 .f32 := (Memref.whole cc0_stg5_0 : Memref sig .tc .vmem S128x64 .f32).view

/-- The core's scoped buffers outside the staging buffers are the three scratch buffers, each owned whole. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Hand

end
-- ==== Proof.KI.RunA.lean ====
/-
  The kernel body run from beginning to end in one of its three control cases. At the first grid point the reset branch is taken and the division is not: the three scratch buffers arrive holding anything and are overwritten before they are read.
  The result names, for every buffer the body stores into, the pieces it ends with.
-/
import proofs.«178308_g83365315215904_cont_9to1c4b_190_37_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents, the output buffer at given contents and the scratch buffers at anything, it runs to any continuation that accepts the inputs and the output unchanged and each stored-into buffer with its pieces written. -/
noncomputable def kernelRun0_A (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : cond0_0 i) (hc1 : ¬cond0_1 i)
    (x0 : Vec F S128x64 .f32) (x1 x2 x3 x4 : Vec F S64x16384 .f32) :
    Σ' (LS0 : List (View.Piece (Elt F) S128x128 .f32)) (LS1 : List (View.Piece (Elt F) S128x128 .f32)), { LS2 : List (View.Piece (Elt F) S128x64 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, fun xi5 E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Hand

end
-- ==== Proof.KI.RunB.lean ====
/-
  The kernel body run from beginning to end in one of its three control cases. At a grid point that is neither first nor last neither branch is taken: the three scratch buffers arrive at what the point before left and are each overwritten once.
  The result names, for every buffer the body stores into, the pieces it ends with.
-/
import proofs.«178308_g83365315215904_cont_9to1c4b_190_37_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents, the output buffer at given contents and the scratch buffers at given contents, it runs to any continuation that accepts the inputs and the output unchanged and each stored-into buffer with its pieces written. -/
noncomputable def kernelRun0_B (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : ¬cond0_0 i) (hc1 : ¬cond0_1 i)
    (x0 : Vec F S128x64 .f32) (x1 x2 x3 x4 : Vec F S64x16384 .f32) (xs0 xs1 : Vec F S128x128 .f32) (xs2 : Vec F S128x64 .f32) :
    Σ' (LS0 : List (View.Piece (Elt F) S128x128 .f32)) (LS1 : List (View.Piece (Elt F) S128x128 .f32)), { LS2 : List (View.Piece (Elt F) S128x64 .f32) //
      ∀ (xi5 : Vec F S128x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, fun xi5 E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Hand

end
-- ==== Proof.KI.RunC.lean ====
/-
  The kernel body run from beginning to end in one of its three control cases. At the last grid point the reset branch is not taken and the division is: the scratch buffers arrive at what the point before left, and the output buffer receives the quotient.
  The result names, for every buffer the body stores into, the pieces it ends with.
-/
import proofs.«178308_g83365315215904_cont_9to1c4b_190_37_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body in this control case, on any whole memrefs: with the five input buffers at given contents and the scratch buffers at given contents, it runs to any continuation that accepts the inputs unchanged and each stored-into buffer with its pieces written. -/
noncomputable def kernelRun0_C (c : Dev nD) (i : grid0.Coords) (arg1 : Memref sig .tc .vmem S128x64 .f32) (harg1 : arg1.IsWhole) (arg2 : Memref sig .tc .vmem S64x16384 .f32) (harg2 : arg2.IsWhole) (arg3 : Memref sig .tc .vmem S64x16384 .f32) (harg3 : arg3.IsWhole) (arg4 : Memref sig .tc .vmem S64x16384 .f32) (harg4 : arg4.IsWhole) (arg5 : Memref sig .tc .vmem S64x16384 .f32) (harg5 : arg5.IsWhole) (arg6 : Memref sig .tc .vmem S128x64 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x64 .f32) (harg9 : arg9.IsWhole) (hc0 : ¬cond0_0 i) (hc1 : cond0_1 i)
    (x0 : Vec F S128x64 .f32) (x1 x2 x3 x4 : Vec F S64x16384 .f32) (xs0 xs1 : Vec F S128x128 .f32) (xs2 : Vec F S128x64 .f32) :
    Σ' (L5 : List (View.Piece (Elt F) S128x64 .f32)) (LS0 : List (View.Piece (Elt F) S128x128 .f32)) (LS1 : List (View.Piece (Elt F) S128x128 .f32)), { LS2 : List (View.Piece (Elt F) S128x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc0__flash_kernel i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0__flash_kernel_eq_skeleton]; unfold cc0__flash_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3
    obtain rfl := harg4.eq_unread hf4; obtain rfl := harg5.eq_unread hf5;
    obtain rfl := harg7.eq_unread hf7; obtain rfl := harg8.eq_unread hf8; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    iexists _; iexact H9

end Cert.KernelIdeal.Hand

end
-- ==== Proof.KI.Frame.lean ====
/-
  The region's run, point by point. After grid point n the three scratch buffers hold what the body's case at n
  leaves in them, computed from the point's five input blocks and from what point n - 1 left (`scrAt`); the output
  buffer is stored into at the last point only (`outAt`). The invariant carried from point to point is the three
  scratch buffers at those contents. The key and value arrays are each read through two windows, so each of the
  four windows holds half a share of its array.
-/
import proofs.«178308_g83365315215904_cont_9to1c4b_190_37_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the three scratch buffers: running maximum, running normaliser, running weighted sum. -/
abbrev Scr (F : FTy → Type) [FloatOps F] : Type := Vec F S128x128 .f32 × Vec F S128x128 .f32 × Vec F S128x64 .f32

/-! ## The three cases at a grid point -/

/-- The first point's run, at the point's memrefs and input blocks. -/
def runA (c : Dev nD) (t : Fin cfg0.N) (h0 : cond0_0 (grid0.coords t)) (h1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t)
/-- A middle point's run, over what the point before left in the scratch buffers. -/
def runB (c : Dev nD) (t : Fin cfg0.N) (h0 : ¬cond0_0 (grid0.coords t)) (h1 : ¬cond0_1 (grid0.coords t)) (s : Scr F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t) s.1 s.2.1 s.2.2
/-- The last point's run, over what the point before left in the scratch buffers. -/
def runC (c : Dev nD) (t : Fin cfg0.N) (h0 : ¬cond0_0 (grid0.coords t)) (h1 : cond0_1 (grid0.coords t)) (s : Scr F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) h0 h1 (iblk m c 0 t) (iblk m c 1 t) (iblk m c 2 t) (iblk m c 3 t) (iblk m c 4 t) s.1 s.2.1 s.2.2

/-- What each case leaves in the scratch buffers: its pieces read back. -/
def soutA (c : Dev nD) (t : Fin cfg0.N) (h0 : cond0_0 (grid0.coords t)) (h1 : ¬cond0_1 (grid0.coords t)) : Scr F :=
  (VS0_0.read (Elt F) (VS0_0.writes (Elt F) VS0_0.junk (runA m c t h0 h1).1),
   VS0_1.read (Elt F) (VS0_1.writes (Elt F) VS0_1.junk (runA m c t h0 h1).2.1),
   VS0_2.read (Elt F) (VS0_2.writes (Elt F) VS0_2.junk (runA m c t h0 h1).2.2.1))
def soutB (c : Dev nD) (t : Fin cfg0.N) (h0 : ¬cond0_0 (grid0.coords t)) (h1 : ¬cond0_1 (grid0.coords t)) (s : Scr F) : Scr F :=
  (VS0_0.read (Elt F) (VS0_0.writes (Elt F) VS0_0.junk (runB m c t h0 h1 s).1),
   VS0_1.read (Elt F) (VS0_1.writes (Elt F) VS0_1.junk (runB m c t h0 h1 s).2.1),
   VS0_2.read (Elt F) (VS0_2.writes (Elt F) VS0_2.junk (runB m c t h0 h1 s).2.2.1))
def soutC (c : Dev nD) (t : Fin cfg0.N) (h0 : ¬cond0_0 (grid0.coords t)) (h1 : cond0_1 (grid0.coords t)) (s : Scr F) : Scr F :=
  (VS0_0.read (Elt F) (VS0_0.writes (Elt F) VS0_0.junk (runC m c t h0 h1 s).2.1),
   VS0_1.read (Elt F) (VS0_1.writes (Elt F) VS0_1.junk (runC m c t h0 h1 s).2.2.1),
   VS0_2.read (Elt F) (VS0_2.writes (Elt F) VS0_2.junk (runC m c t h0 h1 s).2.2.2.1))
/-- What the last point leaves in the output buffer. -/
def outC (c : Dev nD) (t : Fin cfg0.N) (h0 : ¬cond0_0 (grid0.coords t)) (h1 : cond0_1 (grid0.coords t)) (s : Scr F) : Vec F S128x64 .f32 :=
  VO0_5.read (Elt F) (VO0_5.writes (Elt F) VO0_5.junk (runC m c t h0 h1 s).1)

/-! Each case's pieces tile the buffer they are stored into. -/

theorem scoverA_0 (c t h0 h1) (y : S128x128.Idx) : ∃ pc ∈ (runA m c t h0 h1).1, y ∈ pc.1.set :=
  View.cover_of_tiledL (runA m c t h0 h1).1 S128x128.size (by sl_kernel_rfl) y
theorem scoverA_1 (c t h0 h1) (y : S128x128.Idx) : ∃ pc ∈ (runA m c t h0 h1).2.1, y ∈ pc.1.set :=
  View.cover_of_tiledL (runA m c t h0 h1).2.1 S128x128.size (by sl_kernel_rfl) y
theorem scoverA_2 (c t h0 h1) (y : S128x64.Idx) : ∃ pc ∈ (runA m c t h0 h1).2.2.1, y ∈ pc.1.set :=
  View.cover_of_tiledL (runA m c t h0 h1).2.2.1 S128x64.size (by sl_kernel_rfl) y
theorem scoverB_0 (c t h0 h1) (s : Scr F) (y : S128x128.Idx) : ∃ pc ∈ (runB m c t h0 h1 s).1, y ∈ pc.1.set :=
  View.cover_of_tiledL (runB m c t h0 h1 s).1 S128x128.size (by sl_kernel_rfl) y
theorem scoverB_1 (c t h0 h1) (s : Scr F) (y : S128x128.Idx) : ∃ pc ∈ (runB m c t h0 h1 s).2.1, y ∈ pc.1.set :=
  View.cover_of_tiledL (runB m c t h0 h1 s).2.1 S128x128.size (by sl_kernel_rfl) y
theorem scoverB_2 (c t h0 h1) (s : Scr F) (y : S128x64.Idx) : ∃ pc ∈ (runB m c t h0 h1 s).2.2.1, y ∈ pc.1.set :=
  View.cover_of_tiledL (runB m c t h0 h1 s).2.2.1 S128x64.size (by sl_kernel_rfl) y
theorem coverC_5 (c t h0 h1) (s : Scr F) (y : S128x64.Idx) : ∃ pc ∈ (runC m c t h0 h1 s).1, y ∈ pc.1.set :=
  View.cover_of_tiledL (runC m c t h0 h1 s).1 S128x64.size (by sl_kernel_rfl) y
theorem scoverC_0 (c t h0 h1) (s : Scr F) (y : S128x128.Idx) : ∃ pc ∈ (runC m c t h0 h1 s).2.1, y ∈ pc.1.set :=
  View.cover_of_tiledL (runC m c t h0 h1 s).2.1 S128x128.size (by sl_kernel_rfl) y
theorem scoverC_1 (c t h0 h1) (s : Scr F) (y : S128x128.Idx) : ∃ pc ∈ (runC m c t h0 h1 s).2.2.1, y ∈ pc.1.set :=
  View.cover_of_tiledL (runC m c t h0 h1 s).2.2.1 S128x128.size (by sl_kernel_rfl) y
theorem scoverC_2 (c t h0 h1) (s : Scr F) (y : S128x64.Idx) : ∃ pc ∈ (runC m c t h0 h1 s).2.2.2.1, y ∈ pc.1.set :=
  View.cover_of_tiledL (runC m c t h0 h1 s).2.2.2.1 S128x64.size (by sl_kernel_rfl) y

/-! ## What the scratch buffers hold after each point -/

/-- THE RECURSION: the scratch buffers after the body at position n. -/
def scrAt (c : Dev nD) : (n : ℕ) → n < cfg0.N → Scr F
  | 0, hn => soutA m c ⟨0, hn⟩ ((hcond0_0 ⟨0, hn⟩).mpr rfl) (fun h => (fun h => by (try dsimp only at h); omega) ((hcond0_1 ⟨0, hn⟩).mp h))
  | n + 1, hn =>
    if h1 : n + 1 = 15 then
      soutC m c ⟨n + 1, hn⟩ (fun h => (fun h => by (try dsimp only at h); omega) ((hcond0_0 ⟨n + 1, hn⟩).mp h)) ((hcond0_1 ⟨n + 1, hn⟩).mpr h1) (scrAt c n (Nat.lt_of_succ_lt hn))
    else
      soutB m c ⟨n + 1, hn⟩ (fun h => (fun h => by (try dsimp only at h); omega) ((hcond0_0 ⟨n + 1, hn⟩).mp h)) (fun h => h1 ((hcond0_1 ⟨n + 1, hn⟩).mp h)) (scrAt c n (Nat.lt_of_succ_lt hn))

theorem scrAt_A (c : Dev nD) (t : Fin cfg0.N) (h0 : t.val = 0) (h1 : ¬t.val = 15) :
    scrAt m c t.val t.isLt = soutA m c t ((hcond0_0 t).mpr h0) (fun h => h1 ((hcond0_1 t).mp h)) := by
  obtain ⟨n, hn⟩ := t
  cases n with
  | zero => exact rfl
  | succ n => exact absurd h0 (Nat.succ_ne_zero n)

theorem scrAt_B (c : Dev nD) (t : Fin cfg0.N) (h0 : ¬t.val = 0) (h1 : ¬t.val = 15) :
    scrAt m c t.val t.isLt = soutB m c t (fun h => h0 ((hcond0_0 t).mp h)) (fun h => h1 ((hcond0_1 t).mp h)) (scrAt m c (t.val - 1) (Nat.lt_of_le_of_lt (Nat.sub_le _ _) t.isLt)) := by
  obtain ⟨n, hn⟩ := t
  cases n with
  | zero => exact absurd rfl h0
  | succ n => exact (dif_neg h1).trans rfl

theorem scrAt_C (c : Dev nD) (t : Fin cfg0.N) (h0 : ¬t.val = 0) (h1 : t.val = 15) :
    scrAt m c t.val t.isLt = soutC m c t (fun h => h0 ((hcond0_0 t).mp h)) ((hcond0_1 t).mpr h1) (scrAt m c (t.val - 1) (Nat.lt_of_le_of_lt (Nat.sub_le _ _) t.isLt)) := by
  obtain ⟨n, hn⟩ := t
  cases n with
  | zero => exact absurd rfl h0
  | succ n => exact (dif_pos h1).trans rfl

/-- What the body leaves in the output buffer at point t: the quotient at the last point; elsewhere the buffer is
    not stored into, and this value is not consulted. -/
def outAt (c : Dev nD) (t : Fin cfg0.N) : Vec F S128x64 .f32 :=
  if h1 : t.val = 15 then
    outC m c t (fun h => (fun h => by omega) ((hcond0_0 t).mp h)) ((hcond0_1 t).mpr h1) (scrAt m c (t.val - 1) (Nat.lt_of_le_of_lt (Nat.sub_le _ _) t.isLt))
  else VO0_5.read (Elt F) VO0_5.junk

theorem outAt_C (c : Dev nD) (t : Fin cfg0.N) (h0 : ¬t.val = 0) (h1 : t.val = 15) :
    outAt m c t = outC m c t (fun h => h0 ((hcond0_0 t).mp h)) ((hcond0_1 t).mpr h1) (scrAt m c (t.val - 1) (Nat.lt_of_le_of_lt (Nat.sub_le _ _) t.isLt)) := by
  unfold outAt; exact dif_pos h1

/-! ## The invariant -/

/-- Before the first point the scratch buffers hold anything; before point n + 1 they hold what point n left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare (scrAt m c n hn).1 ∗ owns (c : Thread nD τ) scM0_1 fullShare (scrAt m c n hn).2.1 ∗ owns (c : Thread nD τ) scM0_2 fullShare (scrAt m c n hn).2.2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare (scrAt m c n hn).1 ∗ owns (c : Thread nD τ) scM0_1 fullShare (scrAt m c n hn).2.1 ∗ owns (c : Thread nD τ) scM0_2 fullShare (scrAt m c n hn).2.2) := rfl

theorem PhiS_pos (c : Dev nD) (n : ℕ) (h : n ≤ cfg0.N) (hz : n ≠ 0) :
    PhiS m c n h = iprop(owns (c : Thread nD τ) scM0_0 fullShare (scrAt m c (n - 1) (by omega)).1 ∗ owns (c : Thread nD τ) scM0_1 fullShare (scrAt m c (n - 1) (by omega)).2.1 ∗ owns (c : Thread nD τ) scM0_2 fullShare (scrAt m c (n - 1) (by omega)).2.2) := by
  cases n with
  | zero => exact absurd rfl hz
  | succ n => rfl

/-! ## The proof data -/

/-- On core c: the arrays as the region finds them; after the body each input buffer at its block, the output
    buffer at `outAt`; the invariant `PhiS`; each of the two windows on the transposed keys, and each of the two on the
    transposed values, at half a share of its array; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KI.Body.lean ====
/-
  The body obligation: at every grid point, from the invariant and the six staging buffers as the pipeline hands
  them over, the kernel body runs and hands back the invariant at the next point and each buffer at what the proof
  data says it holds. By cases on the point: first, middle, last.
-/
import proofs.«178308_g83365315215904_cont_9to1c4b_190_37_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · have h1 : ¬t.val = 15 := by omega
    rw [Dat.leavesExact_idle (dats m 0 c) 5 t (idleAt0_5 t (fun h => h1 ((hcond0_1 t).mp h))) (noFlush0_5 t (fun h => h1 ((hcond0_1 t).mp h)))]
    rw [scrAt_A m c t h0 h1]
    unfold soutA; (try dsimp only)
    rw [PhiS_castSucc m c t, PhiS_zero m c _ _ h0, scoped0_eq]
    iintro ⟨⟨HS0, HS1, HS2⟩, Ho, ⟨%d0, H0⟩, ⟨%d1, H1⟩, ⟨%d2, H2⟩, ⟨%d3, H3⟩, ⟨%d4, H4⟩, ⟨%d5, H5⟩⟩
    iapply ((runA m c t ((hcond0_0 t).mpr h0) (fun h => h1 ((hcond0_1 t).mp h))).2.2.2 _ Set.univ _)
    ·
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (scoverA_0 m c t _ _)
        isplitl [HS1]
        · unfold owns; iexists _; isplitr
          swap; · iexact HS1
          ipureintro; exact View.read_writes_of_cover _ _ _ _ _ (scoverA_1 m c t _ _)
        · unfold owns; iexists _; isplitr
          swap; · iexact HS2
          ipureintro; exact View.read_writes_of_cover _ _ _ _ _ (scoverA_2 m c t _ _)
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val = 15
    · rw [show (dats m 0 c).leavesExact 5 t = owns (c : Thread nD τ) (ms0_5 t) fullShare ((dats m 0 c).after 5 t) from by
        unfold Dat.leavesExact; rw [liveAt0_5 t ((hcond0_1 t).mpr h1)], after0_5, outAt_C m c t h0 h1]
      rw [scrAt_C m c t h0 h1]
      unfold outC soutC; (try dsimp only)
      rw [PhiS_castSucc m c t, PhiS_pos m c _ _ h0]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((runC m c t (fun h => h0 ((hcond0_0 t).mp h)) ((hcond0_1 t).mpr h1) (scrAt m c (t.val - 1) (Nat.lt_of_le_of_lt (Nat.sub_le _ _) t.isLt))).2.2.2.2 Set.univ _)
      ·
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        iintro ⟨H0, H1, H2, H3, H4, ⟨%e5, H5⟩, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverC_0 m c t _ _ _)
          isplitl [HS1]
          · unfold owns; iexists _; isplitr
            swap; · iexact HS1
            ipureintro; exact View.read_writes_of_cover _ _ _ _ _ (scoverC_1 m c t _ _ _)
          · unfold owns; iexists _; isplitr
            swap; · iexact HS2
            ipureintro; exact View.read_writes_of_cover _ _ _ _ _ (scoverC_2 m c t _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (coverC_5 m c t _ _ _)
    · rw [Dat.leavesExact_idle (dats m 0 c) 5 t (idleAt0_5 t (fun h => h1 ((hcond0_1 t).mp h))) (noFlush0_5 t (fun h => h1 ((hcond0_1 t).mp h)))]
      rw [scrAt_B m c t h0 h1]
      unfold soutB; (try dsimp only)
      rw [PhiS_castSucc m c t, PhiS_pos m c _ _ h0]
      iintro ⟨⟨HS0, HS1, HS2⟩, Ho, ⟨%d0, H0⟩, ⟨%d1, H1⟩, ⟨%d2, H2⟩, ⟨%d3, H3⟩, ⟨%d4, H4⟩, ⟨%d5, H5⟩⟩
      iapply ((runB m c t (fun h => h0 ((hcond0_0 t).mp h)) (fun h => h1 ((hcond0_1 t).mp h)) (scrAt m c (t.val - 1) (Nat.lt_of_le_of_lt (Nat.sub_le _ _) t.isLt))).2.2.2 _ Set.univ _)
      ·
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2]
        · isplitl [HS0]
          · unfold owns; iexists _; isplitr
            swap; · iexact HS0
            ipureintro; exact View.read_writes_of_cover _ _ _ _ _ (scoverB_0 m c t _ _ _)
          isplitl [HS1]
          · unfold owns; iexists _; isplitr
            swap; · iexact HS1
            ipureintro; exact View.read_writes_of_cover _ _ _ _ _ (scoverB_1 m c t _ _ _)
          · unfold owns; iexists _; isplitr
            swap; · iexact HS2
            ipureintro; exact View.read_writes_of_cover _ _ _ _ _ (scoverB_2 m c t _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The region launched: from any memory with zero semaphore counters every weakly fair execution of the program
  terminates without a fault, the result array ends at what the last grid point's write-back leaves in it, and the
  three argument arrays end as they were launched. The transposed key array is handed to two input windows and so
  is the transposed value array: each is split into two half shares, one per window.
-/
import proofs.«178308_g83365315215904_cont_9to1c4b_190_37_alg».proof.Proof.KI.Body
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four distinct buffers behind the six windows, each whole at the full share, give every window its array at
    its share: the query array and the result array whole, the transposed keys and the transposed values halved. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  have e1 : (dats m 0 c).arrays ((dats m 0 c).arrAt · 0)
      = bigSep Finset.univ fun w : Fin 6 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e1, bigSep_W0]
  have e2 : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v0) ↦{fullShare} V m c main_v0)
          ∗ (((c : Thread nD τ).loc main_v1) ↦{fullShare} V m c main_v1) ∗ (((c : Thread nD τ).loc main_v2) ↦{fullShare} V m c main_v2)) := by
    unfold Pipeline.arrBufs
    exact bigSep_eq_bigSepL_of_eq [main_arg0, main_v0, main_v1, main_v2] (by decide) (by decide) _
  rw [e2]
  iintro ⟨H0, Hk, Hv, Ho⟩
  ihave Hk' := (pointsTo_share (PosShare.mem_left_op_right fullShare)).1 $$ Hk
  icases Hk' with ⟨Hk1, Hk2⟩
  ihave Hv' := (pointsTo_share (PosShare.mem_left_op_right fullShare)).1 $$ Hv
  icases Hv' with ⟨Hv1, Hv2⟩
  isplitl [H0]; · iexact H0
  isplitl [Hk1]; · iexact Hk1
  isplitl [Hk2]; · iexact Hk2
  isplitl [Hv1]; · iexact Hv1
  isplitl [Hv2]; · iexact Hv2
  iexact Ho

/-- Before the first point the invariant is the scratch buffers at anything. -/
theorem hin (c : Dev nD) :
    iprop(emp ∗ Pipeline.scopedRest (Ix := Unit) (Name := ℕ) (U := UR sig nD τ) (Lvl := ℕ) (Val := Elt F) spec0 c) ⊢ (dats m 0 c).Φ 0 := by
  rw [show (dats m 0 c).Φ 0 = Pipeline.scopedRest (Ix := Unit) (Name := ℕ) (U := UR sig nD τ) (Lvl := ℕ) (Val := Elt F) spec0 c from rfl]
  iintro ⟨-, H⟩; iexact H

/-- After the last point the scratch buffers' named contents are forgotten. -/
theorem hout (c : Dev nD) :
    (dats m 0 c).Φ (Fin.last cfg0.N) ⊢ iprop(emp ∗ Pipeline.scopedRest (Ix := Unit) (Name := ℕ) (U := UR sig nD τ) (Lvl := ℕ) (Val := Elt F) spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scoped0_eq]
  iintro ⟨HS0, HS1, HS2⟩
  isplitr; · iempintro
  isplitl [HS0]; · iexists _; iexact HS0
  isplitl [HS1]; · iexists _; iexact HS1
  iexists _; iexact HS2

/-- The buffers the region never touches: the key and value arrays as launched (the windows read their transposes). -/
abbrev restSet : Finset (Ref sig .tc) := (Finset.univ.filter fun b : Ref sig .tc => ¬ b.isScoped) \ Finset.univ.image (Pipeline.arrRef spec0)

set_option backward.isDefEq.respectTransparency.types false in
/-- THE RUN. -/
theorem run_main : θ_run defs (onTc (τ := τ) (main (F := F))) ⟨m, fun _ => 0, ρ⟩ (fun r => ∀ c : Dev nD,
      r.2.mem ((c : Thread nD τ).loc main_v2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ restSet, s.mem ((c : Thread nD τ).loc b) = V m c b)
    (hY := fun c s' => by
      iintro ⟨-, HU, HSI⟩
      unfold Pipeline.unscopedRest
      imodintro
      iapply (pointsTo_read_all restSet (fun b => (c : Thread nD τ).loc b) (V m c) s')
      isplitl [HU] <;> iassumption)
    (hQ := fun s h c => ⟨(h c).1 5,
      ((h c).1 0).trans (((dats m 0 c).arrAt_in 0 rfl _).trans ((A_eq m c 0).trans (V_main_arg0 m c))),
      ((h c).2 main_arg1 (by decide)).trans (V_main_arg1 m c),
      ((h c).2 main_arg2 (by decide)).trans (V_main_arg2 m c)⟩)

/-- The frame: the program runs to the end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_main m ρ)

end Cert.KernelIdeal.Hand

end
-- ==== Proof.KI.Final.lean ====
/-
  The result array after the run. The output window's block is the whole array and it is written back at the last
  grid point only, so the array ends holding what the last point's body left in the output buffer.
-/
import proofs.«178308_g83365315215904_cont_9to1c4b_190_37_alg».proof.Proof.KI.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's block index is (0, 0) at every point. -/
theorem idx_facts5 : ∀ t : Fin cfg0.N, win0_5.index t (0 : Fin 2) = 0 ∧ win0_5.index t (1 : Fin 2) = 0 :=
  (by decide +kernel : ∀ t : Fin grid0.N, _)

/-- An index of the result array is in point t's block iff each coordinate is in the block's range on its axis. -/
theorem mem_blk5 (t : Fin cfg0.N) (i : S128x64.Idx) :
    i ∈ ((cfg0.win 5).blk t).view.set ↔ ∀ a : Fin 2, win0_5.index t a * S128x64.size a ≤ (i a).val ∧ (i a).val < win0_5.index t a * S128x64.size a + S128x64.size a := by
  show i ∈ ((View.whole main_v2).slice (win0_5.rect t)).set ↔ _
  rw [View.set_slice_whole, Rect.mem_set_unit]
  exact Iff.rfl

/-- What a writing-back point writes back: the last point's output buffer, read through the (whole) block. -/
theorem flushed5_eq (c : Dev nD) (t : Fin cfg0.N) (hf : (cfg0.win 5).flush t = true) :
    (dats m 0 c).flushed 5 t = ((cfg0.win 5).blk t).view.read (Elt F) (outAt m c t0_15) := by
  have ht : t = t0_15 := by
    apply Fin.ext
    have h1 := (flush0_5 t).mp hf
    have h2 : t.val < 16 := lt_of_lt_of_eq t.isLt (show cfg0.N = 16 from N_0)
    show t.val = 15
    omega
  subst ht
  show (cfg0.win 5).cut (grid0.coords t0_15) ((dats m 0 c).after 5 t0_15) = _
  rw [after0_5]
  funext j
  show outAt m c t0_15 j = outAt m c t0_15 (((cfg0.win 5).blk t0_15).view.emb j)
  obtain ⟨e0, e1⟩ := idx_facts5 t0_15
  have hj : ((cfg0.win 5).blk t0_15).view.emb j = j := by
    funext a; apply Fin.ext
    match a with
    | ⟨0, _⟩ => show win0_5.index t0_15 (0 : Fin 2) * 128 + 1 * (j 0).val = (j 0).val; omega
    | ⟨1, _⟩ => show win0_5.index t0_15 (1 : Fin 2) * 64 + 1 * (j 1).val = (j 1).val; omega
  rw [hj]

/-- THE RESULT ARRAY after the run is what the last point left in the output buffer. -/
theorem final5 (c : Dev nD) : (dats m 0 c).arrAt 5 cfg0.N = outAt m c t0_15 :=
  (dats m 0 c).arrAt_eq_of_cover 5 (outAt m c t0_15) (fun t hf => flushed5_eq m c t hf) (fun i => by
    refine ⟨t0_15, (flush0_5 t0_15).mpr (by decide), ?_⟩
    rw [mem_blk5]
    obtain ⟨e0, e1⟩ := idx_facts5 t0_15
    intro a
    match a with
    | ⟨0, _⟩ => show win0_5.index t0_15 (0 : Fin 2) * 128 ≤ (i 0).val ∧ (i 0).val < win0_5.index t0_15 (0 : Fin 2) * 128 + 128; have h128 : (i 0).val < 128 := (i 0).isLt; omega
    | ⟨1, _⟩ => show win0_5.index t0_15 (1 : Fin 2) * 64 ≤ (i 1).val ∧ (i 1).val < win0_5.index t0_15 (1 : Fin 2) * 64 + 64; have h64 : (i 1).val < 64 := (i 1).isLt; omega)

/-- The run, with the result array named. -/
theorem run_out : θ_run defs (onTc (τ := τ) (main (F := F))) ⟨m, fun _ => 0, ρ⟩ (fun r => ∀ c : Dev nD,
      r.2.mem ((c : Thread nD τ).loc main_v2) = outAt m c t0_15
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (final5 m c), (h c).2⟩) (run_main m ρ)

end Cert.KernelIdeal.Hand

end
-- ==== Proof.KI.Blocks.lean ====
/-
  The blocks the kernel body receives, as entries of the argument arrays.

  Before the region the key and value arrays are transposed. At grid point t the body receives the whole query
  array, and of each transposed array the two blocks of 16384 columns that start at columns 16384 t and
  16384 (t + 16). Read at feature k and column q inside the block, such a block's entry is the entry of the key
  (or value) array at row 16384 t + q (or 16384 (t + 16) + q) and feature k: a block's element sits in its array
  at block index times block size plus its own coordinate, and a transpose swaps the two coordinates.
-/
import proofs.«178308_g83365315215904_cont_9to1c4b_190_37_alg».proof.Proof.KI.Runs
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The transposed arrays the region finds -/

/-- The region finds the first transposed array at the transpose of argument 1 as launched. -/
theorem V_v0 (c : Dev nD) :
    (V m c main_v0 : S64x524288.Idx → Elt F .f32)
      = transpose S64x524288 [1, 0] (m ((c : Thread nD τ).loc main_arg1)) transposes_S524288x64_S64x524288_1_0 := by
  dsimp only [V, hostOps0]
  after_results

/-- The region finds the second transposed array at the transpose of argument 2 as launched. -/
theorem V_v1 (c : Dev nD) :
    (V m c main_v1 : S64x524288.Idx → Elt F .f32)
      = transpose S64x524288 [1, 0] (m ((c : Thread nD τ).loc main_arg2)) transposes_S524288x64_S64x524288_1_0 := by
  dsimp only [V, hostOps0]
  after_results

/-! ## The windows' blocks, read at an index -/

/-- The printed index maps, decided over the grid: the query window stays at block (0, 0); the first window of
    each transposed array is at block (0, t), the second at block (0, t + 16). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val + 16
    ∧ win0_3.index t (0 : Fin 2) = 0 ∧ win0_3.index t (1 : Fin 2) = t.val
    ∧ win0_4.index t (0 : Fin 2) = 0 ∧ win0_4.index t (1 : Fin 2) = t.val + 16 :=
  (by decide +kernel : ∀ t : Fin grid0.N, _)

/-- A grid point is below sixteen. -/
theorem t_lt (t : Fin cfg0.N) : t.val < 16 :=
  lt_of_lt_of_eq t.isLt (show cfg0.N = 16 from N_0)

/-- The query window's block at every point is the query array. -/
theorem iblk_0 (c : Dev nD) (t : Fin cfg0.N) (b : Fin 128) (k : Fin 64) :
    (iblk m c 0 t : S128x64.Idx → Elt F .f32) (ix2 b k)
      = (m ((c : Thread nD τ).loc main_arg0) : S128x64.Idx → Elt F .f32) (ix2 b k) := by
  obtain ⟨e0, e1, -⟩ := idx_facts t
  unfold iblk
  rw [View.read_apply]
  show V m c main_arg0 _ = _
  rw [V_main_arg0]
  refine congrArg (m ((c : Thread nD τ).loc main_arg0) : S128x64.Idx → Elt F .f32) (funext fun a => Fin.ext ?_)
  match a with
  | ⟨0, _⟩ => show win0_0.index t (0 : Fin 2) * 128 + 1 * b.val = b.val; omega
  | ⟨1, _⟩ => show win0_0.index t (1 : Fin 2) * 64 + 1 * k.val = k.val; omega

/-- The first key window's block at point t, at feature k and column q, is key row 16384 t + q at feature k. -/
theorem iblk_1 (c : Dev nD) (t : Fin cfg0.N) (k : Fin 64) (q : Fin 16384) :
    (iblk m c 1 t : S64x16384.Idx → Elt F .f32) (ix2 k q)
      = (m ((c : Thread nD τ).loc main_arg1) : S524288x64.Idx → Elt F .f32)
          (ix2 (⟨16384 * t.val + q.val, by have := t_lt t; have := q.isLt; omega⟩ : Fin 524288) k) := by
  obtain ⟨-, -, e0, e1, -⟩ := idx_facts t
  unfold iblk
  rw [View.read_apply]
  show V m c main_v0 _ = _
  rw [V_v0]
  refine transpose_apply [1, 0] _ transposes_S524288x64_S64x524288_1_0 _ _ (fun a => ?_)
  match a with
  | ⟨0, _⟩ => show k.val = win0_1.index t (0 : Fin 2) * 64 + 1 * k.val; omega
  | ⟨1, _⟩ => show 16384 * t.val + q.val = win0_1.index t (1 : Fin 2) * 16384 + 1 * q.val; omega

/-- The second key window's block at point t, at feature k and column q, is key row 16384 (t + 16) + q at feature k. -/
theorem iblk_2 (c : Dev nD) (t : Fin cfg0.N) (k : Fin 64) (q : Fin 16384) :
    (iblk m c 2 t : S64x16384.Idx → Elt F .f32) (ix2 k q)
      = (m ((c : Thread nD τ).loc main_arg1) : S524288x64.Idx → Elt F .f32)
          (ix2 (⟨16384 * (t.val + 16) + q.val, by have := t_lt t; have := q.isLt; omega⟩ : Fin 524288) k) := by
  obtain ⟨-, -, -, -, e0, e1, -⟩ := idx_facts t
  unfold iblk
  rw [View.read_apply]
  show V m c main_v0 _ = _
  rw [V_v0]
  refine transpose_apply [1, 0] _ transposes_S524288x64_S64x524288_1_0 _ _ (fun a => ?_)
  match a with
  | ⟨0, _⟩ => show k.val = win0_2.index t (0 : Fin 2) * 64 + 1 * k.val; omega
  | ⟨1, _⟩ => show 16384 * (t.val + 16) + q.val = win0_2.index t (1 : Fin 2) * 16384 + 1 * q.val; omega

/-- The first value window's block at point t, at feature k and column q, is value row 16384 t + q at feature k. -/
theorem iblk_3 (c : Dev nD) (t : Fin cfg0.N) (k : Fin 64) (q : Fin 16384) :
    (iblk m c 3 t : S64x16384.Idx → Elt F .f32) (ix2 k q)
      = (m ((c : Thread nD τ).loc main_arg2) : S524288x64.Idx → Elt F .f32)
          (ix2 (⟨16384 * t.val + q.val, by have := t_lt t; have := q.isLt; omega⟩ : Fin 524288) k) := by
  obtain ⟨-, -, -, -, -, -, e0, e1, -⟩ := idx_facts t
  unfold iblk
  rw [View.read_apply]
  show V m c main_v1 _ = _
  rw [V_v1]
  refine transpose_apply [1, 0] _ transposes_S524288x64_S64x524288_1_0 _ _ (fun a => ?_)
  match a with
  | ⟨0, _⟩ => show k.val = win0_3.index t (0 : Fin 2) * 64 + 1 * k.val; omega
  | ⟨1, _⟩ => show 16384 * t.val + q.val = win0_3.index t (1 : Fin 2) * 16384 + 1 * q.val; omega

/-- The second value window's block at point t, at feature k and column q, is value row 16384 (t + 16) + q at
    feature k. -/
theorem iblk_4 (c : Dev nD) (t : Fin cfg0.N) (k : Fin 64) (q : Fin 16384) :
    (iblk m c 4 t : S64x16384.Idx → Elt F .f32) (ix2 k q)
      = (m ((c : Thread nD τ).loc main_arg2) : S524288x64.Idx → Elt F .f32)
          (ix2 (⟨16384 * (t.val + 16) + q.val, by have := t_lt t; have := q.isLt; omega⟩ : Fin 524288) k) := by
  obtain ⟨-, -, -, -, -, -, -, -, e0, e1⟩ := idx_facts t
  unfold iblk
  rw [View.read_apply]
  show V m c main_v1 _ = _
  rw [V_v1]
  refine transpose_apply [1, 0] _ transposes_S524288x64_S64x524288_1_0 _ _ (fun a => ?_)
  match a with
  | ⟨0, _⟩ => show k.val = win0_4.index t (0 : Fin 2) * 64 + 1 * k.val; omega
  | ⟨1, _⟩ => show 16384 * (t.val + 16) + q.val = win0_4.index t (1 : Fin 2) * 16384 + 1 * q.val; omega

end Cert.KernelIdeal.Hand

end
-- ==== Proof.KI.Pieces.lean ====
import proofs.«178308_g83365315215904_cont_9to1c4b_190_37_alg».proof.Proof.KI.Frame
import Idealize.ShloMosaic.Lib.Pipeline.Value

/-!
# What each case of the body leaves behind, as formulas over the point's input blocks

At a grid point with query block `x0`, key blocks `x1`, `x2` and value blocks `x3`, `x4`, and with the
scratch buffers arriving at `(mOld, lOld, accOld)`, the body leaves

* the new running maximum: the old one against the row maxima of the two score blocks,
* the new normaliser: the old one rescaled by `exp (mOld - mNew)` plus the row sums of the two blocks of
  exponentials,
* the new weighted sum: the old one rescaled the same way plus the two products of exponentials with values.

Each stored-into buffer ends with one covering store whose payload is read here with every load resolved to
the contents of the whole buffer it reads.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The stores' rectangles start at the origin. -/
theorem hz : (![0, 0] : Fin 2 → Nat) = fun _ => 0 := funext fun a => by fin_cases a <;> rfl

/-! ## A middle point -/

/-- A middle point leaves, as running maximum, the old maximum against the new blocks' row maxima. -/
theorem soutB_0 (c : Dev nD) (t : Fin cfg0.N) (h0 : ¬cond0_0 (grid0.coords t)) (h1 : ¬cond0_1 (grid0.coords t)) (s : Scr F) :
    (soutB m c t h0 h1 s).1 = k0_pay2 (k0_pay10 (iblk m c 0 t) (iblk m c 1 t) (iblk m c 2 t) s.1) := by
  unfold soutB
  dsimp only
  rw [View.read_writes_eq_canon _ _ _ (scoverB_0 m c t h0 h1 s)]
  unfold runB kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- A middle point leaves, as normaliser, the old one rescaled plus the new blocks' row sums. -/
theorem soutB_1 (c : Dev nD) (t : Fin cfg0.N) (h0 : ¬cond0_0 (grid0.coords t)) (h1 : ¬cond0_1 (grid0.coords t)) (s : Scr F) :
    (soutB m c t h0 h1 s).2.1
      = k0_pay1 (k0_pay14 (iblk m c 0 t) (iblk m c 1 t) (iblk m c 2 t) s.1 s.2.1) := by
  unfold soutB
  dsimp only
  rw [View.read_writes_eq_canon _ _ _ (scoverB_1 m c t h0 h1 s)]
  unfold runB kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- A middle point leaves, as weighted sum, the old one rescaled plus the new blocks' products with the values. -/
theorem soutB_2 (c : Dev nD) (t : Fin cfg0.N) (h0 : ¬cond0_0 (grid0.coords t)) (h1 : ¬cond0_1 (grid0.coords t)) (s : Scr F) :
    (soutB m c t h0 h1 s).2.2
      = k0_pay3 (k0_pay11 (iblk m c 0 t) (iblk m c 1 t) (iblk m c 2 t) s.1)
          (k0_pay12 (iblk m c 0 t) (iblk m c 1 t) (iblk m c 2 t) s.1)
          (k0_pay13 (iblk m c 0 t) (iblk m c 1 t) (iblk m c 2 t) s.1) (iblk m c 3 t) (iblk m c 4 t) s.2.2 := by
  unfold soutB
  dsimp only
  rw [View.read_writes_eq_canon _ _ _ (scoverB_2 m c t h0 h1 s)]
  unfold runB kernelRun0_B
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- The three scratch buffers after a middle point. -/
theorem soutB_eq (c : Dev nD) (t : Fin cfg0.N) (h0 : ¬cond0_0 (grid0.coords t)) (h1 : ¬cond0_1 (grid0.coords t)) (s : Scr F) :
    soutB m c t h0 h1 s =
      (k0_pay2 (k0_pay10 (iblk m c 0 t) (iblk m c 1 t) (iblk m c 2 t) s.1),
       k0_pay1 (k0_pay14 (iblk m c 0 t) (iblk m c 1 t) (iblk m c 2 t) s.1 s.2.1),
       k0_pay3 (k0_pay11 (iblk m c 0 t) (iblk m c 1 t) (iblk m c 2 t) s.1)
         (k0_pay12 (iblk m c 0 t) (iblk m c 1 t) (iblk m c 2 t) s.1)
         (k0_pay13 (iblk m c 0 t) (iblk m c 1 t) (iblk m c 2 t) s.1) (iblk m c 3 t) (iblk m c 4 t) s.2.2) :=
  Prod.ext (soutB_0 m c t h0 h1 s) (Prod.ext (soutB_1 m c t h0 h1 s) (soutB_2 m c t h0 h1 s))

/-! ## The last point -/

/-- The last point leaves the same running maximum as a middle point would. -/
theorem soutC_0 (c : Dev nD) (t : Fin cfg0.N) (h0 : ¬cond0_0 (grid0.coords t)) (h1 : cond0_1 (grid0.coords t)) (s : Scr F) :
    (soutC m c t h0 h1 s).1 = k0_pay2 (k0_pay10 (iblk m c 0 t) (iblk m c 1 t) (iblk m c 2 t) s.1) := by
  unfold soutC
  dsimp only
  rw [View.read_writes_eq_canon _ _ _ (scoverC_0 m c t h0 h1 s)]
  unfold runC kernelRun0_C
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- The last point leaves the same normaliser as a middle point would. -/
theorem soutC_1 (c : Dev nD) (t : Fin cfg0.N) (h0 : ¬cond0_0 (grid0.coords t)) (h1 : cond0_1 (grid0.coords t)) (s : Scr F) :
    (soutC m c t h0 h1 s).2.1
      = k0_pay1 (k0_pay14 (iblk m c 0 t) (iblk m c 1 t) (iblk m c 2 t) s.1 s.2.1) := by
  unfold soutC
  dsimp only
  rw [View.read_writes_eq_canon _ _ _ (scoverC_1 m c t h0 h1 s)]
  unfold runC kernelRun0_C
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- The last point leaves the same weighted sum as a middle point would. -/
theorem soutC_2 (c : Dev nD) (t : Fin cfg0.N) (h0 : ¬cond0_0 (grid0.coords t)) (h1 : cond0_1 (grid0.coords t)) (s : Scr F) :
    (soutC m c t h0 h1 s).2.2
      = k0_pay3 (k0_pay11 (iblk m c 0 t) (iblk m c 1 t) (iblk m c 2 t) s.1)
          (k0_pay12 (iblk m c 0 t) (iblk m c 1 t) (iblk m c 2 t) s.1)
          (k0_pay13 (iblk m c 0 t) (iblk m c 1 t) (iblk m c 2 t) s.1) (iblk m c 3 t) (iblk m c 4 t) s.2.2 := by
  unfold soutC
  dsimp only
  rw [View.read_writes_eq_canon _ _ _ (scoverC_2 m c t h0 h1 s)]
  unfold runC kernelRun0_C
  dsimp only
  sl_unfold_words
  rw [View.canon_unit_zero hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-- The three scratch buffers after the last point. -/
theorem soutC_eq (c : Dev nD) (t : Fin cfg0.N) (h0 : ¬cond0_0 (grid0.coords t)) (h1 : cond0_1 (grid0.coords t)) (s : Scr F) :
    soutC m c t h0 h1 s =
      (k0_pay2 (k0_pay10 (iblk m c 0 t) (iblk m c 1 t) (iblk m c 2 t) s.1),
       k0_pay1 (k0_pay14 (iblk m c 0 t) (iblk m c 1 t) (iblk m c 2 t) s.1 s.2.1),
       k0_pay3 (k0_pay11 (iblk m c 0 t) (iblk m c 1 t) (iblk m c 2 t) s.1)
         (k0_pay12 (iblk m c 0 t) (iblk m c 1 t) (iblk m c 2 t) s.1)
         (k0_pay13 (iblk m c 0 t) (iblk m c 1 t) (iblk m c 2 t) s.1) (iblk m c 3 t) (iblk m c 4 t) s.2.2) :=
  Prod.ext (soutC_0 m c t h0 h1 s) (Prod.ext (soutC_1 m c t h0 h1 s) (soutC_2 m c t h0 h1 s))

/-- The output buffer after the last point: the weighted sum just stored divided by the normaliser just stored
    (the division loads the two scratch buffers after their stores, so it reads the new contents). -/
theorem outC_eq (c : Dev nD) (t : Fin cfg0.N) (h0 : ¬cond0_0 (grid0.coords t)) (h1 : cond0_1 (grid0.coords t)) (s : Scr F) :
    outC m c t h0 h1 s
      = k0_pay4
          (k0_pay3 (k0_pay11 (iblk m c 0 t) (iblk m c 1 t) (iblk m c 2 t) s.1)
            (k0_pay12 (iblk m c 0 t) (iblk m c 1 t) (iblk m c 2 t) s.1)
            (k0_pay13 (iblk m c 0 t) (iblk m c 1 t) (iblk m c 2 t) s.1) (iblk m c 3 t) (iblk m c 4 t) s.2.2)
          (k0_pay1 (k0_pay14 (iblk m c 0 t) (iblk m c 1 t) (iblk m c 2 t) s.1 s.2.1)) := by
  unfold outC
  rw [View.read_writes_eq_canon _ _ _ (coverC_5 m c t h0 h1 s)]
  unfold runC kernelRun0_C
  dsimp only
  sl_unfold_words
  rw [View.canon_unit_zero hz]
  rw [View.readCov_unit_zero (S := S128x64) _ hz, View.readCov_unit_zero (S := S128x128) _ hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.ld_unit_zero (S := S128x64) hz, View.ld_unit_zero (S := S64x16384) hz, View.ld_unit_zero (S := S128x128) hz]

/-! ## The first point

The reset stores `-∞`, `0`, `0` into the three scratch buffers first; the update then loads them back, so it
runs as a middle point would over those three constants. Each buffer ends with two stores, the later one
covering. -/

/-- The first point leaves the running maximum of a middle point that found `-∞`. -/
theorem soutA_0 (c : Dev nD) (t : Fin cfg0.N) (h0 : cond0_0 (grid0.coords t)) (h1 : ¬cond0_1 (grid0.coords t)) :
    (soutA m c t h0 h1).1
      = k0_pay2 (k0_pay10 (iblk m c 0 t) (iblk m c 1 t) (iblk m c 2 t) (k0_pay5 (F := F))) := by
  unfold soutA
  dsimp only
  rw [View.read_writes_eq_canon _ _ _ (scoverA_0 m c t h0 h1)]
  unfold runA kernelRun0_A
  dsimp only
  sl_unfold_words
  rw [View.canon_cons_unit_zero (S := S128x128) hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.readCov_unit_zero (S := S128x128) _ hz, View.readCov_unit_zero (S := S128x64) _ hz,
    View.ld_unit_zero (S := S128x64) hz, View.ld_unit_zero (S := S64x16384) hz, View.ld_unit_zero (S := S128x128) hz]

/-- The first point leaves the normaliser of a middle point that found maximum `-∞` and normaliser `0`. -/
theorem soutA_1 (c : Dev nD) (t : Fin cfg0.N) (h0 : cond0_0 (grid0.coords t)) (h1 : ¬cond0_1 (grid0.coords t)) :
    (soutA m c t h0 h1).2.1
      = k0_pay1 (k0_pay14 (iblk m c 0 t) (iblk m c 1 t) (iblk m c 2 t) (k0_pay5 (F := F)) (k0_pay6 (F := F))) := by
  unfold soutA
  dsimp only
  rw [View.read_writes_eq_canon _ _ _ (scoverA_1 m c t h0 h1)]
  unfold runA kernelRun0_A
  dsimp only
  sl_unfold_words
  rw [View.canon_cons_unit_zero (S := S128x128) hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.readCov_unit_zero (S := S128x128) _ hz, View.readCov_unit_zero (S := S128x64) _ hz,
    View.ld_unit_zero (S := S128x64) hz, View.ld_unit_zero (S := S64x16384) hz, View.ld_unit_zero (S := S128x128) hz]

/-- The first point leaves the weighted sum of a middle point that found maximum `-∞` and weighted sum `0`. -/
theorem soutA_2 (c : Dev nD) (t : Fin cfg0.N) (h0 : cond0_0 (grid0.coords t)) (h1 : ¬cond0_1 (grid0.coords t)) :
    (soutA m c t h0 h1).2.2
      = k0_pay3 (k0_pay11 (iblk m c 0 t) (iblk m c 1 t) (iblk m c 2 t) (k0_pay5 (F := F)))
          (k0_pay12 (iblk m c 0 t) (iblk m c 1 t) (iblk m c 2 t) (k0_pay5 (F := F)))
          (k0_pay13 (iblk m c 0 t) (iblk m c 1 t) (iblk m c 2 t) (k0_pay5 (F := F))) (iblk m c 3 t) (iblk m c 4 t)
          (k0_pay7 (F := F)) := by
  unfold soutA
  dsimp only
  rw [View.read_writes_eq_canon _ _ _ (scoverA_2 m c t h0 h1)]
  unfold runA kernelRun0_A
  dsimp only
  sl_unfold_words
  rw [View.canon_cons_unit_zero (S := S128x64) hz]
  simp only [View.readAt_eq_ld, (hs0_0 t).read_unread, (hs0_1 t).read_unread, (hs0_2 t).read_unread, (hs0_3 t).read_unread,
    (hs0_4 t).read_unread, (hs0_5 t).read_unread, (Memref.isWhole_whole _).read_unread,
    View.readCov_unit_zero (S := S128x128) _ hz, View.readCov_unit_zero (S := S128x64) _ hz,
    View.ld_unit_zero (S := S128x64) hz, View.ld_unit_zero (S := S64x16384) hz, View.ld_unit_zero (S := S128x128) hz]

/-- The three scratch buffers after the first point. -/
theorem soutA_eq (c : Dev nD) (t : Fin cfg0.N) (h0 : cond0_0 (grid0.coords t)) (h1 : ¬cond0_1 (grid0.coords t)) :
    soutA m c t h0 h1 =
      (k0_pay2 (k0_pay10 (iblk m c 0 t) (iblk m c 1 t) (iblk m c 2 t) (k0_pay5 (F := F))),
       k0_pay1 (k0_pay14 (iblk m c 0 t) (iblk m c 1 t) (iblk m c 2 t) (k0_pay5 (F := F)) (k0_pay6 (F := F))),
       k0_pay3 (k0_pay11 (iblk m c 0 t) (iblk m c 1 t) (iblk m c 2 t) (k0_pay5 (F := F)))
         (k0_pay12 (iblk m c 0 t) (iblk m c 1 t) (iblk m c 2 t) (k0_pay5 (F := F)))
         (k0_pay13 (iblk m c 0 t) (iblk m c 1 t) (iblk m c 2 t) (k0_pay5 (F := F))) (iblk m c 3 t) (iblk m c 4 t)
         (k0_pay7 (F := F))) :=
  Prod.ext (soutA_0 m c t h0 h1) (Prod.ext (soutA_1 m c t h0 h1) (soutA_2 m c t h0 h1))

end Cert.KernelIdeal.Hand

end
-- ==== Proof.Finite.lean ====
import proofs.«178308_g83365315215904_cont_9to1c4b_190_37_alg».proof.Pre_finite_inputs
import proofs.«178308_g83365315215904_cont_9to1c4b_190_37_alg».proof.Proof.Gen.Pre_finite_inputs
import Idealize.ShloMosaic.Lib.ReduceAll
import Idealize.ShloMosaic.Lib.ValueIdx
import Idealize.ShloMosaic.PureOps.Ideal

/-!
# The precondition, decoded: every input entry is a real

The precondition is the conjunction of `all (|x| < +∞)`, `all (|k| < +∞)` and
`all (|v| < +∞)`. Over the extended reals `|x| = max x (-x)` is `⊤` exactly at `x = ⊥` and at
`x = ⊤`, so `|x| < ⊤` says that `x` is the coercion of a real.
-/

namespace Cert.Flash.Finite

open Idealize.ShloMosaic
open Cert.Pre_finite_inputs

/-- The rank-0 shape has a single index. -/
instance : Subsingleton S_.Idx := ⟨fun a b => funext fun d => d.elim0⟩

/-- The pattern `0x7F800000` (sign 0, exponent all ones, significand 0) denotes `+∞`. -/
theorem inf_bits : Ideal.ofBits .f32 0x7F800000#32 = ⊤ := by
  simp [Ideal.ofBits, Ideal.ieee]

/-- An extended real whose absolute value `max x (-x)` is below `+∞` is a real: at `x = ⊥` and at
    `x = ⊤` the absolute value is `⊤`, which is not below itself. -/
theorem real_of_abs_lt (x : EReal)
    (h : Ideal.cmp .olt (max x (-x)) (Ideal.ofBits .f32 0x7F800000#32) = 1#1) :
    ∃ r : ℝ, x = (r : EReal) := by
  rw [inf_bits] at h
  induction x using EReal.rec with
  | bot => simp [Ideal.cmp] at h
  | coe r => exact ⟨r, rfl⟩
  | top => simp [Ideal.cmp] at h

/-- If the precondition holds then every entry of each of the three inputs is a real. The
    predicate is a conjunction of three reductions by `and` over all entries; each one being 1
    makes the comparison `|entry| < +∞` hold at every index. -/
theorem finite_of_pre (x : FVec Ideal S128x64 .f32) (k v : FVec Ideal S524288x64 .f32)
    (h : Cert.Pre_finite_inputs.fn (F := Ideal) x k v = fun _ => 1#1) :
    (∀ i, ∃ r : ℝ, x i = (r : EReal)) ∧ (∀ i, ∃ r : ℝ, k i = (r : EReal))
      ∧ (∀ i, ∃ r : ℝ, v i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_abs_lt (x i) (Host.reduce_andi_all _ _ _ _ _ h1 i),
    fun i => real_of_abs_lt (k i) (Host.reduce_andi_all _ _ _ _ _ h2 i),
    fun i => real_of_abs_lt (v i) (Host.reduce_andi_all _ _ _ _ _ h3 i)⟩

/-- The same with the real entries chosen: under the precondition each input is the entrywise
    coercion of an array of reals. -/
theorem real_of_pre (x : FVec Ideal S128x64 .f32) (k v : FVec Ideal S524288x64 .f32)
    (h : Cert.Pre_finite_inputs.fn (F := Ideal) x k v = fun _ => 1#1) :
    ∃ (xr : S128x64.Idx → ℝ) (kr vr : S524288x64.Idx → ℝ),
      x = (fun i => (xr i : EReal)) ∧ k = (fun i => (kr i : EReal))
        ∧ v = (fun i => (vr i : EReal)) := by
  obtain ⟨hx, hk, hv⟩ := finite_of_pre x k v h
  choose xr hxr using hx
  choose kr hkr using hk
  choose vr hvr using hv
  exact ⟨xr, kr, vr, funext hxr, funext hkr, funext hvr⟩

end Cert.Flash.Finite
-- ==== Proof.Spec.lean ====
/-
  The specification: softmax attention of 128 queries against 524288 keys and values,
  entry by entry over the extended reals.

  For a query row `b` and a key row `j` the score is the inner product of the two rows over the
  64 features. The row's maximum score is subtracted before the exponential, the weights
  `exp (score − maximum)` are divided by their sum over the keys, and the result's entry at
  (row, feature) is the weighted sum of the values' column for that feature.
  No program is mentioned here: the two programs' results are each shown equal to `G`.
-/
import Idealize.ShloMosaic.PureOps.Ideal
import Idealize.ShloMosaic.Lib.ValueIdx

noncomputable section

open scoped BigOperators

namespace Cert.Flash

open Idealize.ShloMosaic Idealize.ShloMosaic.ValueIdx

/-- The shape of the queries and of the result: 128 rows of 64 features. -/
abbrev SX : Shape := ⟨2, ![128, 64]⟩
/-- The shape of the keys and of the values: 524288 rows of 64 features. -/
abbrev SK : Shape := ⟨2, ![524288, 64]⟩

/-- The row of an index of the result, as a number below 128. -/
abbrev row (i : SX.Idx) : Fin 128 := i 0
/-- The feature of an index of the result, as a number below 64. -/
abbrev col (i : SX.Idx) : Fin 64 := i 1

/-- The score of query row `b` against key row `j`: their inner product over the 64 features. -/
def score (x : SX.Idx → EReal) (K : SK.Idx → EReal) (b : Fin 128) (j : Fin 524288) : EReal :=
  ∑ k : Fin 64, x (ix2 b k) * K (ix2 j k)

/-- The largest score of query row `b` over all keys. -/
def rowMax (x : SX.Idx → EReal) (K : SK.Idx → EReal) (b : Fin 128) : EReal :=
  Finset.univ.sup (fun j : Fin 524288 => score x K b j)

/-- The weight of key row `j` for query row `b`: the exponential of the score less the row's maximum. -/
def expw (x : SX.Idx → EReal) (K : SK.Idx → EReal) (b : Fin 128) (j : Fin 524288) : EReal :=
  Ideal.exp (score x K b j - rowMax x K b)

/-- The sum of query row `b`'s weights over all keys. -/
def rowSum (x : SX.Idx → EReal) (K : SK.Idx → EReal) (b : Fin 128) : EReal :=
  ∑ j : Fin 524288, expw x K b j

/-- Softmax attention: at (row, feature), the values' column for the feature summed with the row's
    normalized weights. -/
def G (x : SX.Idx → EReal) (K V : SK.Idx → EReal) : SX.Idx → EReal := fun i =>
  ∑ j : Fin 524288, Ideal.div (expw x K (row i) j) (rowSum x K (row i)) * V (ix2 j (col i))

/-- The result at the index with coordinates `b` and `c`. -/
theorem G_ix2 (x : SX.Idx → EReal) (K V : SK.Idx → EReal) (b : Fin 128) (c : Fin 64) :
    G x K V (ix2 b c) = ∑ j : Fin 524288, Ideal.div (expw x K b j) (rowSum x K b) * V (ix2 j c) := rfl

end Cert.Flash

end
-- ==== Proof.LibOnlineSoftmax.lean ====
import Idealize.ShloMosaic.PureOps.Ideal

/-!
# The online softmax recursion over the extended reals

Scores `s j` and values `v j` are finite reals, read in the extended reals by coercion.
For a finite index set `U` the running maximum is the supremum of the scores over `U`
(`⊥` over the empty set), the running denominator is `∑_{j ∈ U} exp (s j - m)` and the running
numerator is `∑_{j ∈ U} exp (s j - m) * v j`.

* `step`: absorbing a new nonempty block `S` disjoint from `U` — new maximum
  `m' = max m (sup_S s)`, old sums rescaled by `exp (m - m')`, the block's terms added — gives
  the same three quantities over `U ∪ S`.
* `final`: dividing the full numerator by the full denominator equals the sum of the values
  weighted by the normalised exponentials.
* `onl`: the recursion itself over a sequence of blocks; `onl_inv`, `onl_final` its invariant and its result when
  every block is nonempty; `onl_inv'`, `onl_final'` the same asking nonemptiness of the first `N` blocks only, which
  is what a partition into finitely many blocks gives.
-/

namespace Cert.Flash

open Idealize.ShloMosaic
open scoped BigOperators

variable {J : Type}

/-- The coercion `ℝ → EReal` passes through a finite sum. -/
theorem coe_sum (U : Finset J) (f : J → ℝ) :
    ((∑ j ∈ U, f j : ℝ) : EReal) = ∑ j ∈ U, (f j : EReal) := by
  classical
  refine Finset.induction_on U (by simp) (fun a U ha ih => ?_)
  rw [Finset.sum_insert ha, Finset.sum_insert ha, EReal.coe_add, ih]

/-- Over a nonempty finite set the supremum of the scores, taken in the extended reals, is
    attained at some index; in particular it is a real. -/
theorem sup_coe_eq (s : J → ℝ) {U : Finset J} (h : U.Nonempty) :
    ∃ r : ℝ, U.sup (fun j => (s j : EReal)) = (r : EReal) := by
  obtain ⟨x, hx, hmax⟩ := Finset.exists_max_image U s h
  refine ⟨s x, le_antisymm (Finset.sup_le fun j hj => ?_)
    (Finset.le_sup (f := fun j => (s j : EReal)) hx)⟩
  exact EReal.coe_le_coe_iff.mpr (hmax j hj)

/-- The exponential of a difference of two reals, computed in the extended reals, is the real
    exponential of the real difference. -/
theorem exp_sub_coe (x c : ℝ) :
    Ideal.exp ((x : EReal) - (c : EReal)) = ((Real.exp (x - c) : ℝ) : EReal) := by
  rw [← EReal.coe_sub, Ideal.exp_coe]

/-- Changing the reference point of a weighted sum of shifted exponentials from `c` to `c'`
    multiplies it by `exp (c - c')`: `exp (x - c) * exp (c - c') = exp (x - c')`. -/
theorem rescale_sum (s w : J → ℝ) (U : Finset J) (c c' : ℝ) :
    (∑ j ∈ U, Ideal.exp ((s j : EReal) - (c : EReal)) * (w j : EReal))
        * Ideal.exp ((c : EReal) - (c' : EReal))
      = ∑ j ∈ U, Ideal.exp ((s j : EReal) - (c' : EReal)) * (w j : EReal) := by
  simp only [exp_sub_coe, ← EReal.coe_mul, ← coe_sum]
  rw [EReal.coe_eq_coe_iff, Finset.sum_mul]
  refine Finset.sum_congr rfl fun j _ => ?_
  rw [mul_right_comm, ← Real.exp_add]
  congr 2
  ring

/-- The unweighted form of `rescale_sum`. -/
theorem rescale_sum_one (s : J → ℝ) (U : Finset J) (c c' : ℝ) :
    (∑ j ∈ U, Ideal.exp ((s j : EReal) - (c : EReal))) * Ideal.exp ((c : EReal) - (c' : EReal))
      = ∑ j ∈ U, Ideal.exp ((s j : EReal) - (c' : EReal)) := by
  have e := rescale_sum s (fun _ => 1) U c c'
  simpa only [EReal.coe_one, mul_one] using e

/-- One step of the online recursion. With `m`, `l`, `a` the maximum, denominator and numerator
    over `U`, and a nonempty block `S` disjoint from `U`, the updated maximum
    `m' = max m (sup_S s)`, the rescaled denominator plus the block's terms, and the rescaled
    numerator plus the block's terms are the maximum, denominator and numerator over `U ∪ S`.
    Over the empty `U` (the first block) `m = ⊥`, `l = a = 0` and `exp ⊥ = 0`. -/
theorem step [DecidableEq J] (s v : J → ℝ) (U S : Finset J) (hdisj : Disjoint U S)
    (hS : S.Nonempty) (m l a : EReal)
    (hm : m = U.sup (fun j => (s j : EReal)))
    (hl : l = ∑ j ∈ U, Ideal.exp ((s j : EReal) - m))
    (ha : a = ∑ j ∈ U, Ideal.exp ((s j : EReal) - m) * (v j : EReal))
    (m' : EReal) (hm' : m' = max m (S.sup (fun j => (s j : EReal)))) :
    m' = (U ∪ S).sup (fun j => (s j : EReal))
    ∧ l * Ideal.exp (m - m') + ∑ j ∈ S, Ideal.exp ((s j : EReal) - m')
        = ∑ j ∈ U ∪ S, Ideal.exp ((s j : EReal) - m')
    ∧ a * Ideal.exp (m - m') + ∑ j ∈ S, Ideal.exp ((s j : EReal) - m') * (v j : EReal)
        = ∑ j ∈ U ∪ S, Ideal.exp ((s j : EReal) - m') * (v j : EReal) := by
  obtain ⟨rS, hrS⟩ := sup_coe_eq s hS
  have h1 : m' = (U ∪ S).sup (fun j => (s j : EReal)) := by
    rw [hm', hm, Finset.sup_union]
  refine ⟨h1, ?_⟩
  rw [Finset.sum_union hdisj, Finset.sum_union hdisj]
  rcases U.eq_empty_or_nonempty with rfl | hU
  · rw [Finset.sum_empty] at hl ha
    subst hl ha
    simp
  · obtain ⟨rU, hrU⟩ := sup_coe_eq s hU
    have hm0 : m = (rU : EReal) := hm.trans hrU
    have hm1 : m' = ((max rU rS : ℝ) : EReal) := by
      rw [hm', hm0, hrS]
      exact (EReal.coe_strictMono.monotone.map_max).symm
    subst hl ha
    rw [hm0, hm1, rescale_sum_one, rescale_sum]
    exact ⟨rfl, rfl⟩

/-- The final normalisation. With `M` the maximum of all scores and `L` the full denominator,
    `L` is a positive real, so dividing the numerator by `L` is multiplying by `1 / L`, which
    distributes over the sum. -/
theorem final [Fintype J] [Nonempty J] (s v : J → ℝ) (M L : EReal)
    (hM : M = Finset.univ.sup (fun j => (s j : EReal)))
    (hL : L = ∑ j, Ideal.exp ((s j : EReal) - M)) :
    Ideal.div (∑ j, Ideal.exp ((s j : EReal) - M) * (v j : EReal)) L
      = ∑ j, Ideal.div (Ideal.exp ((s j : EReal) - M)) L * (v j : EReal) := by
  obtain ⟨r, hr⟩ := sup_coe_eq s (Finset.univ_nonempty (α := J))
  have hM0 : M = (r : EReal) := hM.trans hr
  have hLr : L = ((∑ j, Real.exp (s j - r) : ℝ) : EReal) := by
    rw [hL, hM0, coe_sum]
    exact Finset.sum_congr rfl fun j _ => exp_sub_coe _ _
  have hpos : (0 : ℝ) < ∑ j, Real.exp (s j - r) :=
    Finset.sum_pos (fun j _ => Real.exp_pos _) Finset.univ_nonempty
  rw [hLr, hM0]
  simp only [Ideal.div_coe hpos.ne', exp_sub_coe, ← EReal.coe_mul, ← coe_sum]
  rw [EReal.coe_eq_coe_iff, Finset.sum_mul]
  exact Finset.sum_congr rfl fun j _ => by ring

/-- The maximum over a union of two blocks is the larger of the two block maxima. -/
theorem sup_union_two [DecidableEq J] (s : J → ℝ) (S₁ S₂ : Finset J) :
    (S₁ ∪ S₂).sup (fun j => (s j : EReal))
      = max (S₁.sup (fun j => (s j : EReal))) (S₂.sup (fun j => (s j : EReal))) :=
  Finset.sup_union

/-- The denominator terms over a union of two disjoint blocks split into the two block sums. -/
theorem sum_exp_union [DecidableEq J] (s : J → ℝ) (S₁ S₂ : Finset J) (h : Disjoint S₁ S₂)
    (c : EReal) :
    ∑ j ∈ S₁ ∪ S₂, Ideal.exp ((s j : EReal) - c)
      = ∑ j ∈ S₁, Ideal.exp ((s j : EReal) - c) + ∑ j ∈ S₂, Ideal.exp ((s j : EReal) - c) :=
  Finset.sum_union h

/-- The numerator terms over a union of two disjoint blocks split into the two block sums. -/
theorem sum_exp_mul_union [DecidableEq J] (s v : J → ℝ) (S₁ S₂ : Finset J) (h : Disjoint S₁ S₂)
    (c : EReal) :
    ∑ j ∈ S₁ ∪ S₂, Ideal.exp ((s j : EReal) - c) * (v j : EReal)
      = ∑ j ∈ S₁, Ideal.exp ((s j : EReal) - c) * (v j : EReal)
        + ∑ j ∈ S₂, Ideal.exp ((s j : EReal) - c) * (v j : EReal) :=
  Finset.sum_union h

/-! ## The whole recursion

The index set is cut into blocks `P 0, P 1, …`; the recursion starts from `(⊥, 0, 0)` and
absorbs one block per step. -/

section Recursion

variable (s v : J → ℝ) (P : ℕ → Finset J)

/-- The online recursion: the triple (running maximum, running denominator, running numerator)
    after the first `n` blocks. It starts at `(⊥, 0, 0)`; absorbing block `P n` replaces the
    maximum `m` by `m' = max m (sup_{P n} s)`, rescales both sums by `exp (m - m')` and adds
    the block's terms taken relative to `m'`. -/
noncomputable def onl : ℕ → EReal × EReal × EReal
  | 0 => (⊥, 0, 0)
  | n + 1 =>
    (max (onl n).1 ((P n).sup fun j => (s j : EReal)),
     (onl n).2.1 * Ideal.exp ((onl n).1 - max (onl n).1 ((P n).sup fun j => (s j : EReal)))
       + ∑ j ∈ P n, Ideal.exp ((s j : EReal) - max (onl n).1 ((P n).sup fun j => (s j : EReal))),
     (onl n).2.2 * Ideal.exp ((onl n).1 - max (onl n).1 ((P n).sup fun j => (s j : EReal)))
       + ∑ j ∈ P n,
           Ideal.exp ((s j : EReal) - max (onl n).1 ((P n).sup fun j => (s j : EReal)))
             * (v j : EReal))

@[simp] theorem onl_zero : onl s v P 0 = (⊥, 0, 0) := rfl

theorem onl_succ (n : ℕ) :
    onl s v P (n + 1) =
      (max (onl s v P n).1 ((P n).sup fun j => (s j : EReal)),
       (onl s v P n).2.1
           * Ideal.exp ((onl s v P n).1
               - max (onl s v P n).1 ((P n).sup fun j => (s j : EReal)))
         + ∑ j ∈ P n,
             Ideal.exp ((s j : EReal) - max (onl s v P n).1 ((P n).sup fun j => (s j : EReal))),
       (onl s v P n).2.2
           * Ideal.exp ((onl s v P n).1
               - max (onl s v P n).1 ((P n).sup fun j => (s j : EReal)))
         + ∑ j ∈ P n,
             Ideal.exp ((s j : EReal) - max (onl s v P n).1 ((P n).sup fun j => (s j : EReal)))
               * (v j : EReal)) := rfl

/-- The invariant of the recursion: after `n` pairwise disjoint nonempty blocks the triple is
    the maximum, the denominator and the numerator over the union of those blocks, both sums
    taken relative to that maximum. By induction, each step being `step`. -/
theorem onl_inv [DecidableEq J] (hd : ∀ i j, i ≠ j → Disjoint (P i) (P j))
    (hne : ∀ n, (P n).Nonempty) (n : ℕ) :
    (onl s v P n).1 = ((Finset.range n).biUnion P).sup (fun j => (s j : EReal))
    ∧ (onl s v P n).2.1
        = ∑ j ∈ (Finset.range n).biUnion P, Ideal.exp ((s j : EReal) - (onl s v P n).1)
    ∧ (onl s v P n).2.2
        = ∑ j ∈ (Finset.range n).biUnion P,
            Ideal.exp ((s j : EReal) - (onl s v P n).1) * (v j : EReal) := by
  induction n with
  | zero => simp
  | succ n ih =>
    obtain ⟨h1, h2, h3⟩ := ih
    have hdisj : Disjoint ((Finset.range n).biUnion P) (P n) := by
      rw [Finset.disjoint_biUnion_left]
      intro i hi
      exact hd i n (ne_of_lt (Finset.mem_range.mp hi))
    have hU : (Finset.range (n + 1)).biUnion P = (Finset.range n).biUnion P ∪ P n := by
      rw [Finset.range_add_one, Finset.biUnion_insert, Finset.union_comm]
    obtain ⟨g1, g2, g3⟩ := step s v _ (P n) hdisj (hne n) _ _ _ h1 h2 h3 _ rfl
    rw [hU, onl_succ]
    exact ⟨g1, g2, g3⟩

/-- The result of the recursion. When the first `N` blocks cover every index, the final
    numerator divided by the final denominator is the sum of the values weighted by the
    normalised exponentials `exp (s j - M) / L`, with `M` the maximum of all scores and
    `L = ∑ j, exp (s j - M)`. -/
theorem onl_final [DecidableEq J] [Fintype J] [Nonempty J] (N : ℕ)
    (hcover : (Finset.range N).biUnion P = Finset.univ)
    (hd : ∀ i j, i ≠ j → Disjoint (P i) (P j)) (hne : ∀ n, (P n).Nonempty) :
    Ideal.div (onl s v P N).2.2 (onl s v P N).2.1
      = ∑ j, Ideal.div (Ideal.exp ((s j : EReal) - Finset.univ.sup (fun j => (s j : EReal))))
            (∑ j, Ideal.exp ((s j : EReal) - Finset.univ.sup (fun j => (s j : EReal))))
          * (v j : EReal) := by
  obtain ⟨h1, h2, h3⟩ := onl_inv s v P hd hne N
  rw [hcover] at h1 h2 h3
  rw [h3, h2, h1]
  exact final s v _ _ rfl rfl

end Recursion

/-! ## The recursion's invariant, asking nonemptiness of the first `N` blocks only -/

section BoundedRecursion
variable {J : Type} (s v : J → ℝ) (P : ℕ → Finset J)

/-- The invariant of the recursion after `n ≤ N` steps, when the blocks are pairwise disjoint and the first `N` are
    nonempty: the triple is the maximum, the denominator and the numerator over the union of the first `n` blocks. -/
theorem onl_inv' [DecidableEq J] (N : ℕ) (hd : ∀ i j, i ≠ j → Disjoint (P i) (P j))
    (hne : ∀ n, n < N → (P n).Nonempty) (n : ℕ) (hn : n ≤ N) :
    (onl s v P n).1 = ((Finset.range n).biUnion P).sup (fun j => (s j : EReal))
    ∧ (onl s v P n).2.1
        = ∑ j ∈ (Finset.range n).biUnion P, Ideal.exp ((s j : EReal) - (onl s v P n).1)
    ∧ (onl s v P n).2.2
        = ∑ j ∈ (Finset.range n).biUnion P,
            Ideal.exp ((s j : EReal) - (onl s v P n).1) * (v j : EReal) := by
  induction n with
  | zero => simp
  | succ n ih =>
    obtain ⟨h1, h2, h3⟩ := ih (Nat.le_of_succ_le hn)
    have hdisj : Disjoint ((Finset.range n).biUnion P) (P n) := by
      rw [Finset.disjoint_biUnion_left]
      intro i hi
      exact hd i n (ne_of_lt (Finset.mem_range.mp hi))
    have hU : (Finset.range (n + 1)).biUnion P = (Finset.range n).biUnion P ∪ P n := by
      rw [Finset.range_add_one, Finset.biUnion_insert, Finset.union_comm]
    obtain ⟨g1, g2, g3⟩ := step s v _ (P n) hdisj (hne n (Nat.lt_of_succ_le hn)) _ _ _ h1 h2 h3 _ rfl
    rw [hU, onl_succ]
    exact ⟨g1, g2, g3⟩

/-- The result of the recursion when the first `N` blocks are nonempty and cover every index: the final numerator over
    the final denominator is the sum of the values weighted by the normalised exponentials. -/
theorem onl_final' [DecidableEq J] [Fintype J] [Nonempty J] (N : ℕ)
    (hcover : (Finset.range N).biUnion P = Finset.univ)
    (hd : ∀ i j, i ≠ j → Disjoint (P i) (P j)) (hne : ∀ n, n < N → (P n).Nonempty) :
    Ideal.div (onl s v P N).2.2 (onl s v P N).2.1
      = ∑ j, Ideal.div (Ideal.exp ((s j : EReal) - Finset.univ.sup (fun j => (s j : EReal))))
            (∑ j, Ideal.exp ((s j : EReal) - Finset.univ.sup (fun j => (s j : EReal))))
          * (v j : EReal) := by
  obtain ⟨h1, h2, h3⟩ := onl_inv' s v P N hd hne N (Nat.le_refl N)
  rw [hcover] at h1 h2 h3
  rw [h3, h2, h1]
  exact final s v _ _ rfl rfl

end BoundedRecursion

end Cert.Flash
-- ==== Proof.LibColumnLayout.lean ====
/-
  The keepdims column forms of three layout operations, read at an index given by coordinates, for any extents and
  any element type: a vector `[a]` cast to the column `[a, 1]`; a column `[a, 1]` broadcast to `[a, b]`; the
  first column of `[a, n + 1]` cut out as `[a, 1]`. These are what a row reduction kept as a column, and a
  per-row scalar applied across a row, print as.
-/
import Idealize.ShloMosaic.Lib.ValueIdx
import Idealize.ShloMosaic.Lib.Pipeline.Value
import Idealize.ShloMosaic.Lib.ValueLayout

noncomputable section

namespace Cert.ColumnLayout

open Idealize.ShloMosaic Idealize.SL.Sem Idealize.ShloMosaic.ValueIdx

/-! ## Column forms of the layout operations, read at an index given by coordinates -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first column of an `[a, n + 1]` array, cut out as `[a, 1]`, reads at `(p, u)` the array at `(p, 0)`. -/
theorem slice2_col0_apply {a n : ℕ} (X : (⟨2, ![a, n + 1]⟩ : Shape).Idx → α)
    (h : (⟨2, ![a, n + 1]⟩ : Shape).Slices ![0, 0] ⟨2, ![a, 1]⟩) (p : Fin a) (u : Fin 1) :
    extractStridedSlice ⟨2, ![a, 1]⟩ ![0, 0] X h (ix2 p u) = X (ix2 p (0 : Fin (n + 1))) :=
  slice2_axis1_apply 0 X h p u (0 : Fin (n + 1)) (by
    have hu : u.val = 0 := by omega
    show 0 = 0 + u.val
    rw [hu])

end Layout

end Cert.ColumnLayout

end
-- ==== Proof.Payloads1.lean ====
/-
  The kernel body's arithmetic read at an index, at the ideal values (every float an extended real, every
  operation exact). First part: the two
  matrix products read as finite sums over their one contraction coordinate; the payloads built from them (the two
  score blocks, the rescaled accumulator, the final quotient); and the payloads that are a value unchanged or a splat.
-/
import proofs.«178308_g83365315215904_cont_9to1c4b_190_37_alg».proof.Proof.Gen.KernelIdeal.Skeleton
import proofs.«178308_g83365315215904_cont_9to1c4b_190_37_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.SL.Sem Idealize.ShloMosaic.ValueIdx Cert.ColumnLayout

/-! ## The two matmuls' operand indices -/

theorem lhsA_0 (i : S128x16384.Idx) (q : dot_S128x64_S64x16384_S128x16384_1_0_0_1_n_n.contr.Idx) :
    (dot_S128x64_S64x16384_S128x16384_1_0_0_1_n_n.lhsIdx i q 0).val = (i 0).val := by
  unfold DotDims.lhsIdx
  rw [dif_neg (show ¬(0 : Fin S128x64.rank) ∈ dot_S128x64_S64x16384_S128x16384_1_0_0_1_n_n.lhsBatch by decide), dif_pos (show (0 : Fin S128x64.rank) ∈ dot_S128x64_S64x16384_S128x16384_1_0_0_1_n_n.lhsNonContracting by decide)]
  rfl
theorem lhsA_1 (i : S128x16384.Idx) (q : dot_S128x64_S64x16384_S128x16384_1_0_0_1_n_n.contr.Idx) :
    (dot_S128x64_S64x16384_S128x16384_1_0_0_1_n_n.lhsIdx i q 1).val = (q ⟨0, by decide⟩).val :=
  dot_S128x64_S64x16384_S128x16384_1_0_0_1_n_n.lhsIdx_val_of_single rfl i q
theorem rhsA_0 (i : S128x16384.Idx) (q : dot_S128x64_S64x16384_S128x16384_1_0_0_1_n_n.contr.Idx) :
    (dot_S128x64_S64x16384_S128x16384_1_0_0_1_n_n.rhsIdx i q 0).val = (q ⟨0, by decide⟩).val :=
  dot_S128x64_S64x16384_S128x16384_1_0_0_1_n_n.rhsIdx_val_of_single rfl i q
theorem rhsA_1 (i : S128x16384.Idx) (q : dot_S128x64_S64x16384_S128x16384_1_0_0_1_n_n.contr.Idx) :
    (dot_S128x64_S64x16384_S128x16384_1_0_0_1_n_n.rhsIdx i q 1).val = (i 1).val := by
  unfold DotDims.rhsIdx
  rw [dif_neg (show ¬(1 : Fin S64x16384.rank) ∈ dot_S128x64_S64x16384_S128x16384_1_0_0_1_n_n.rhsBatch by decide), dif_pos (show (1 : Fin S64x16384.rank) ∈ dot_S128x64_S64x16384_S128x16384_1_0_0_1_n_n.rhsNonContracting by decide)]
  rfl

/-- A matmul into the zero accumulator contracting the left operand's columns with the right
    operand's rows, read at `(b, q)`: the sum over the 64 contraction coordinates. -/
theorem matmulA_apply (x : FVec Ideal S128x64 .f32) (y : FVec Ideal S64x16384 .f32) (b : Fin 128) (q : Fin 16384) :
    FloatOps.matmul dot_S128x64_S64x16384_S128x16384_1_0_0_1_n_n none x y (constant (F := Ideal) S128x16384 .f32 0x00000000#32) (ix2 b q)
      = ∑ k : Fin 64, x (ix2 b k) * y (ix2 k q) := by
  rw [Ideal.matmul_constant_zero_apply, ← Equiv.sum_comp (contrEquiv1 dot_S128x64_S64x16384_S128x16384_1_0_0_1_n_n 64 rfl rfl).symm]
  refine Finset.sum_congr rfl fun k _ => ?_
  have hk := contrEquiv1_symm_val dot_S128x64_S64x16384_S128x16384_1_0_0_1_n_n 64 rfl rfl k
  have el : dot_S128x64_S64x16384_S128x16384_1_0_0_1_n_n.lhsIdx (ix2 b q) ((contrEquiv1 dot_S128x64_S64x16384_S128x16384_1_0_0_1_n_n 64 rfl rfl).symm k) = ix2 b k := funext fun a => Fin.ext (by
    match a with
    | ⟨0, _⟩ => exact lhsA_0 _ _
    | ⟨1, _⟩ => exact (lhsA_1 _ _).trans hk)
  have er : dot_S128x64_S64x16384_S128x16384_1_0_0_1_n_n.rhsIdx (ix2 b q) ((contrEquiv1 dot_S128x64_S64x16384_S128x16384_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-- The first score block: row `b` of the queries against column `q` of the first key block. -/
theorem pay8_apply (x : FVec Ideal S128x64 .f32) (k1 : FVec Ideal S64x16384 .f32) (b : Fin 128) (q : Fin 16384) :
    k0_pay8 (F := Ideal) x k1 (ix2 b q) = ∑ k : Fin 64, x (ix2 b k) * k1 (ix2 k q) := by
  unfold k0_pay8
  simp only [matmul]
  rw [shapeCast_self]
  exact matmulA_apply x k1 b q

/-- The second score block: the same against the second key block. -/
theorem pay9_apply (x : FVec Ideal S128x64 .f32) (k2 : FVec Ideal S64x16384 .f32) (b : Fin 128) (q : Fin 16384) :
    k0_pay9 (F := Ideal) x k2 (ix2 b q) = ∑ k : Fin 64, x (ix2 b k) * k2 (ix2 k q) := by
  unfold k0_pay9
  simp only [matmul]
  rw [shapeCast_self]
  exact matmulA_apply x k2 b q

theorem lhsB_0 (i : S128x64.Idx) (q : dot_S128x16384_S64x16384_S128x64_1_1_0_0_n_n.contr.Idx) :
    (dot_S128x16384_S64x16384_S128x64_1_1_0_0_n_n.lhsIdx i q 0).val = (i 0).val := by
  unfold DotDims.lhsIdx
  rw [dif_neg (show ¬(0 : Fin S128x16384.rank) ∈ dot_S128x16384_S64x16384_S128x64_1_1_0_0_n_n.lhsBatch by decide), dif_pos (show (0 : Fin S128x16384.rank) ∈ dot_S128x16384_S64x16384_S128x64_1_1_0_0_n_n.lhsNonContracting by decide)]
  rfl
theorem lhsB_1 (i : S128x64.Idx) (q : dot_S128x16384_S64x16384_S128x64_1_1_0_0_n_n.contr.Idx) :
    (dot_S128x16384_S64x16384_S128x64_1_1_0_0_n_n.lhsIdx i q 1).val = (q ⟨0, by decide⟩).val :=
  dot_S128x16384_S64x16384_S128x64_1_1_0_0_n_n.lhsIdx_val_of_single rfl i q
theorem rhsB_0 (i : S128x64.Idx) (q : dot_S128x16384_S64x16384_S128x64_1_1_0_0_n_n.contr.Idx) :
    (dot_S128x16384_S64x16384_S128x64_1_1_0_0_n_n.rhsIdx i q 0).val = (i 1).val := by
  unfold DotDims.rhsIdx
  rw [dif_neg (show ¬(0 : Fin S64x16384.rank) ∈ dot_S128x16384_S64x16384_S128x64_1_1_0_0_n_n.rhsBatch by decide), dif_pos (show (0 : Fin S64x16384.rank) ∈ dot_S128x16384_S64x16384_S128x64_1_1_0_0_n_n.rhsNonContracting by decide)]
  rfl
theorem rhsB_1 (i : S128x64.Idx) (q : dot_S128x16384_S64x16384_S128x64_1_1_0_0_n_n.contr.Idx) :
    (dot_S128x16384_S64x16384_S128x64_1_1_0_0_n_n.rhsIdx i q 1).val = (q ⟨0, by decide⟩).val :=
  dot_S128x16384_S64x16384_S128x64_1_1_0_0_n_n.rhsIdx_val_of_single rfl i q

/-- A matmul into the zero accumulator contracting the columns of BOTH operands, read at `(b, d)`:
    the sum over the 16384 contraction coordinates of row `b` of the left against row `d` of the right. -/
theorem matmulB_apply (p : FVec Ideal S128x16384 .f32) (v : FVec Ideal S64x16384 .f32) (b : Fin 128) (d : Fin 64) :
    FloatOps.matmul dot_S128x16384_S64x16384_S128x64_1_1_0_0_n_n none p v (constant (F := Ideal) S128x64 .f32 0x00000000#32) (ix2 b d)
      = ∑ q : Fin 16384, p (ix2 b q) * v (ix2 d q) := by
  rw [Ideal.matmul_constant_zero_apply, ← Equiv.sum_comp (contrEquiv1 dot_S128x16384_S64x16384_S128x64_1_1_0_0_n_n 16384 rfl rfl).symm]
  refine Finset.sum_congr rfl fun k _ => ?_
  have hk := contrEquiv1_symm_val dot_S128x16384_S64x16384_S128x64_1_1_0_0_n_n 16384 rfl rfl k
  have el : dot_S128x16384_S64x16384_S128x64_1_1_0_0_n_n.lhsIdx (ix2 b d) ((contrEquiv1 dot_S128x16384_S64x16384_S128x64_1_1_0_0_n_n 16384 rfl rfl).symm k) = ix2 b k := funext fun a => Fin.ext (by
    match a with
    | ⟨0, _⟩ => exact lhsB_0 _ _
    | ⟨1, _⟩ => exact (lhsB_1 _ _).trans hk)
  have er : dot_S128x16384_S64x16384_S128x64_1_1_0_0_n_n.rhsIdx (ix2 b d) ((contrEquiv1 dot_S128x16384_S64x16384_S128x64_1_1_0_0_n_n 16384 rfl rfl).symm k) = ix2 d k := funext fun a => Fin.ext (by
    match a with
    | ⟨0, _⟩ => exact rhsB_0 _ _
    | ⟨1, _⟩ => exact (rhsB_1 _ _).trans hk)
  rw [el, er]

/-- The rescaled accumulator: the old accumulator times the rescaling factor's first column, plus the
    two blocks' weighted sums of value rows. -/
theorem pay3_apply (a : FVec Ideal S128x128 .f32) (p1 p2 : FVec Ideal S128x16384 .f32) (v1 v2 : FVec Ideal S64x16384 .f32)
    (acc : FVec Ideal S128x64 .f32) (b : Fin 128) (d : Fin 64) :
    k0_pay3 (F := Ideal) a p1 p2 v1 v2 acc (ix2 b d)
      = acc (ix2 b d) * a (ix2 b 0)
        + ((∑ q : Fin 16384, p1 (ix2 b q) * v1 (ix2 d q)) + (∑ q : Fin 16384, p2 (ix2 b q) * v2 (ix2 d q))) := by
  unfold k0_pay3
  simp only [matmul, shapeCast_self]
  refine (addf_apply _ _ _).trans ?_
  refine congrArg₂ (· + ·) ?_ ?_
  · refine (mulf_apply _ _ _).trans ?_
    refine congrArg (acc (ix2 b d) * ·) ?_
    refine (broadcastTo_a1_ab_apply _ _ b d).trans ?_
    exact slice2_col0_apply a _ b 0
  · refine (addf_apply _ _ _).trans ?_
    exact congrArg₂ (· + ·) (matmulB_apply p1 v1 b d) (matmulB_apply p2 v2 b d)

/-- The output: the accumulator divided by the first column of the denominator. -/
theorem pay4_apply (acc : FVec Ideal S128x64 .f32) (l : FVec Ideal S128x128 .f32) (b : Fin 128) (d : Fin 64) :
    k0_pay4 (F := Ideal) acc l (ix2 b d) = Ideal.div (acc (ix2 b d)) (l (ix2 b 0)) := by
  unfold k0_pay4
  refine (divf_apply _ _ _).trans ?_
  refine congrArg (Ideal.div (acc (ix2 b d))) ?_
  refine (broadcastTo_a1_ab_apply _ _ b d).trans ?_
  exact slice2_col0_apply l _ b 0

/-! ## The payloads that are a value unchanged, or a splat -/

/-- The word `0xFF800000` denotes `-∞`, the bottom of the extended reals. -/
theorem ofBits_neg_inf_f32 : Ideal.ofBits .f32 0xFF800000#32 = ⊥ := by simp [Ideal.ofBits, Ideal.ieee]

/-- A shape cast to the same shape stores the value unchanged. -/
theorem pay1_eq (v : FVec Ideal S128x128 .f32) : k0_pay1 (F := Ideal) v = v := by
  unfold k0_pay1
  exact shapeCast_self _ _

/-- A shape cast to the same shape stores the value unchanged. -/
theorem pay2_eq (v : FVec Ideal S128x128 .f32) : k0_pay2 (F := Ideal) v = v := by
  unfold k0_pay2
  exact shapeCast_self _ _

/-- The running maximum starts at `-∞` everywhere. -/
theorem pay5_eq : k0_pay5 (F := Ideal) = fun _ => (⊥ : EReal) := by
  unfold k0_pay5
  refine (shapeCast_self _ _).trans ?_
  funext i
  exact ofBits_neg_inf_f32

/-- The running denominator starts at zero everywhere. -/
theorem pay6_eq : k0_pay6 (F := Ideal) = fun _ => (0 : EReal) := by
  unfold k0_pay6
  refine (shapeCast_self _ _).trans ?_
  funext i
  exact Ideal.ofBits_zero_f32

/-- The accumulator starts at zero everywhere. -/
theorem pay7_eq : k0_pay7 (F := Ideal) = fun _ => (0 : EReal) := by
  unfold k0_pay7
  refine (shapeCast_self _ _).trans ?_
  funext i
  exact Ideal.ofBits_zero_f32

end Cert.KernelIdeal.PayValue

end
-- ==== Proof.Payloads2.lean ====
/-
  The kernel body's arithmetic read at an index, at the ideal values. Second part: a row maximum from `-∞` read as a
  supremum and a row sum from zero read as a finite sum; then the online-softmax step's payloads — the new running
  maximum, the rescaling factor, the two blocks' exponential weights, and the new running denominator — each at an
  index, in terms of the earlier payloads at an index.
-/
import proofs.«178308_g83365315215904_cont_9to1c4b_190_37_alg».proof.Proof.Payloads1

noncomputable section

namespace Cert.KernelIdeal.PayValue

open Cert.KernelIdeal Cert.KernelIdeal.Gen Idealize.ShloMosaic Idealize.SL.Sem Idealize.ShloMosaic.ValueIdx Cert.ColumnLayout

/-- A fold of `max` from the bottom element is the supremum. -/
theorem fold_max_bot_eq_sup {ι : Type} (s : Finset ι) (f : ι → EReal) : s.fold max ⊥ f = s.sup f := by
  classical
  refine Finset.induction_on s ?_ ?_
  · rfl
  · intro a s ha ih
    rw [Finset.fold_insert ha, Finset.sup_insert, ih]

/-- The maximum over the columns of a `[128, 16384]` block, from `-∞`, read at row `b`: the supremum of the row. -/
theorem rowMax_apply (src : FVec Ideal S128x16384 .f32) (h : S128x16384.Reduces [1] S128) (hφ : FKind.Formats .f32)
    (hacc : (0xFF800000#32 : BitVec 32) = FKind.maximumf.neutral .f32 hφ) (b : Fin 128) :
    multiReduction (F := Ideal) .maximumf [1] S128 src 0xFF800000#32 h hφ hacc (ix1 b)
      = Finset.univ.sup fun q : Fin 16384 => src (ix2 b q) := by
  refine (Ideal.multiReduction_maximumf_single src _ h hφ hacc (ix1 b)).trans ?_
  have hl : ∀ q : Fin 16384, h.lift (ix1 b) q = ix2 b q := fun q => funext fun a => Fin.ext (by
    match a with
    | ⟨0, _⟩ => rfl
    | ⟨1, _⟩ => rfl)
  have hf : (src ∘ h.lift (ix1 b)) = fun q : Fin 16384 => src (ix2 b q) := funext fun q => congrArg src (hl q)
  rw [hf]
  show (Finset.univ : Finset (Fin 16384)).fold max (Ideal.ofBits .f32 0xFF800000#32) (fun q : Fin 16384 => src (ix2 b q)) = _
  rw [ofBits_neg_inf_f32]
  exact fold_max_bot_eq_sup _ _

/-- The exponential of a vector at an index is the exponential of the element. -/
theorem exp_apply {s : Shape} {φ : FTy} (v : FVec Ideal s φ) (i : s.Idx) : exp v i = Ideal.exp (v i) := rfl

/-- The sum over the columns of a `[128, 16384]` block, from zero, read at row `b`: the sum of the row. -/
theorem rowSum_apply (src : FVec Ideal S128x16384 .f32) (h : S128x16384.Reduces [1] S128) (hφ : FKind.Formats .f32)
    (hacc : (0x00000000#32 : BitVec 32) = FKind.add.neutral .f32 hφ) (b : Fin 128) :
    multiReduction (F := Ideal) .add [1] S128 src 0x00000000#32 h hφ hacc (ix1 b)
      = ∑ q : Fin 16384, src (ix2 b q) := by
  refine (Ideal.multiReduction_add_single src _ h hφ hacc (ix1 b)).trans ?_
  have hl : ∀ q : Fin 16384, h.lift (ix1 b) q = ix2 b q := fun q => funext fun a => Fin.ext (by
    match a with
    | ⟨0, _⟩ => rfl
    | ⟨1, _⟩ => rfl)
  show ∑ q : Fin 16384, src (h.lift (ix1 b) q) = _
  exact Finset.sum_congr rfl fun q _ => congrArg src (hl q)

/-- The new running maximum: the old one against the larger of the two score blocks' row maxima. -/
theorem pay10_apply (x : FVec Ideal S128x64 .f32) (k1 k2 : FVec Ideal S64x16384 .f32) (M : FVec Ideal S128x128 .f32)
    (b c : Fin 128) :
    k0_pay10 (F := Ideal) x k1 k2 M (ix2 b c)
      = max (M (ix2 b c))
          (max (Finset.univ.sup fun q : Fin 16384 => k0_pay8 (F := Ideal) x k1 (ix2 b q))
               (Finset.univ.sup fun q : Fin 16384 => k0_pay9 (F := Ideal) x k2 (ix2 b q))) := by
  unfold k0_pay10
  refine (maximumf_apply _ _ _).trans ?_
  refine congrArg (max (M (ix2 b c))) ?_
  refine (broadcastTo_a1_ab_apply _ _ b c).trans ?_
  refine (maximumf_apply _ _ _).trans ?_
  refine congrArg₂ max ?_ ?_
  · refine (shapeCast_a_a1_apply _ _ b 0).trans ?_
    exact rowMax_apply _ _ _ _ b
  · refine (shapeCast_a_a1_apply _ _ b 0).trans ?_
    exact rowMax_apply _ _ _ _ b

/-- The rescaling factor: the exponential of the old maximum minus the new one. -/
theorem pay11_apply (x : FVec Ideal S128x64 .f32) (k1 k2 : FVec Ideal S64x16384 .f32) (M : FVec Ideal S128x128 .f32)
    (b c : Fin 128) :
    k0_pay11 (F := Ideal) x k1 k2 M (ix2 b c)
      = Ideal.exp (M (ix2 b c) - k0_pay10 (F := Ideal) x k1 k2 M (ix2 b c)) := by
  unfold k0_pay11
  rfl

/-- The first block's weights: the exponential of the score minus the new maximum's first column. -/
theorem pay12_apply (x : FVec Ideal S128x64 .f32) (k1 k2 : FVec Ideal S64x16384 .f32) (M : FVec Ideal S128x128 .f32)
    (b : Fin 128) (q : Fin 16384) :
    k0_pay12 (F := Ideal) x k1 k2 M (ix2 b q)
      = Ideal.exp (k0_pay8 (F := Ideal) x k1 (ix2 b q) - k0_pay10 (F := Ideal) x k1 k2 M (ix2 b 0)) := by
  unfold k0_pay12
  refine (exp_apply _ _).trans ?_
  refine congrArg Ideal.exp ?_
  refine (subf_apply _ _ _).trans ?_
  refine congrArg (k0_pay8 (F := Ideal) x k1 (ix2 b q) - ·) ?_
  refine (broadcastTo_a1_ab_apply _ _ b q).trans ?_
  exact slice2_col0_apply _ _ b 0

/-- The second block's weights likewise. -/
theorem pay13_apply (x : FVec Ideal S128x64 .f32) (k1 k2 : FVec Ideal S64x16384 .f32) (M : FVec Ideal S128x128 .f32)
    (b : Fin 128) (q : Fin 16384) :
    k0_pay13 (F := Ideal) x k1 k2 M (ix2 b q)
      = Ideal.exp (k0_pay9 (F := Ideal) x k2 (ix2 b q) - k0_pay10 (F := Ideal) x k1 k2 M (ix2 b 0)) := by
  unfold k0_pay13
  refine (exp_apply _ _).trans ?_
  refine congrArg Ideal.exp ?_
  refine (subf_apply _ _ _).trans ?_
  refine congrArg (k0_pay9 (F := Ideal) x k2 (ix2 b q) - ·) ?_
  refine (broadcastTo_a1_ab_apply _ _ b q).trans ?_
  exact slice2_col0_apply _ _ b 0

/-- The new running denominator: the old one rescaled, plus the two blocks' row sums of weights. -/
theorem pay14_apply (x : FVec Ideal S128x64 .f32) (k1 k2 : FVec Ideal S64x16384 .f32) (M L : FVec Ideal S128x128 .f32)
    (b c : Fin 128) :
    k0_pay14 (F := Ideal) x k1 k2 M L (ix2 b c)
      = L (ix2 b c) * k0_pay11 (F := Ideal) x k1 k2 M (ix2 b c)
        + ((∑ q : Fin 16384, k0_pay12 (F := Ideal) x k1 k2 M (ix2 b q))
           + (∑ q : Fin 16384, k0_pay13 (F := Ideal) x k1 k2 M (ix2 b q))) := by
  unfold k0_pay14
  refine (addf_apply _ _ _).trans ?_
  refine congrArg₂ (· + ·) ?_ ?_
  · exact mulf_apply _ _ _
  · refine (broadcastTo_a1_ab_apply _ _ b c).trans ?_
    refine (addf_apply _ _ _).trans ?_
    refine congrArg₂ (· + ·) ?_ ?_
    · refine (shapeCast_a_a1_apply _ _ b 0).trans ?_
      exact rowSum_apply _ _ _ _ b
    · refine (shapeCast_a_a1_apply _ _ b 0).trans ?_
      exact rowSum_apply _ _ _ _ b

end Cert.KernelIdeal.PayValue

end
-- ==== Proof.Match1.lean ====
/-
  One grid point of the kernel is one step of the online softmax recursion. The 524288 key rows are cut into the 16
  sets of rows the grid points read (two blocks of 16384 rows each): the sets are pairwise disjoint, nonempty and
  cover every row. The recursion's invariant and result are restated asking nonemptiness of the first N blocks only.
  With real inputs, the scratch values a grid point writes at (row, feature) — new maximum, new denominator, new
  numerator — are the recursion's next triple for that row's real scores and that feature's real values; the values
  written before the first grid point are the recursion's start.
-/
import proofs.«178308_g83365315215904_cont_9to1c4b_190_37_alg».proof.Proof.Payloads2
import proofs.«178308_g83365315215904_cont_9to1c4b_190_37_alg».proof.Proof.LibOnlineSoftmax
import proofs.«178308_g83365315215904_cont_9to1c4b_190_37_alg».proof.Proof.Spec

noncomputable section

open scoped BigOperators

namespace Cert.Flash.Match

open Idealize.ShloMosaic Idealize.ShloMosaic.ValueIdx Cert.Flash

/-! ## The key rows each grid point reads

Grid point `n` (of 16) reads two blocks of 16384 key rows: rows `16384 n …` and rows `16384 (n + 16) …`. -/

/-- The key row under column `q` of grid point `n`'s first block. -/
def col1 (n : ℕ) (hn : n < 16) (q : Fin 16384) : Fin 524288 := ⟨16384 * n + q.val, by have := q.isLt; omega⟩
/-- The key row under column `q` of grid point `n`'s second block. -/
def col2 (n : ℕ) (hn : n < 16) (q : Fin 16384) : Fin 524288 := ⟨16384 * (n + 16) + q.val, by have := q.isLt; omega⟩

/-- The key rows grid point `n` reads: its two blocks (no rows beyond the 16 grid points). -/
def part (n : ℕ) : Finset (Fin 524288) :=
  if hn : n < 16 then Finset.univ.image (col1 n hn) ∪ Finset.univ.image (col2 n hn) else ∅

theorem part_eq (n : ℕ) (hn : n < 16) : part n = Finset.univ.image (col1 n hn) ∪ Finset.univ.image (col2 n hn) :=
  dif_pos hn

theorem col1_injective (n : ℕ) (hn : n < 16) : Function.Injective (col1 n hn) := fun p q h => by
  have h' : 16384 * n + p.val = 16384 * n + q.val := congrArg Fin.val h
  exact Fin.ext (by omega)

theorem col2_injective (n : ℕ) (hn : n < 16) : Function.Injective (col2 n hn) := fun p q h => by
  have h' : 16384 * (n + 16) + p.val = 16384 * (n + 16) + q.val := congrArg Fin.val h
  exact Fin.ext (by omega)

/-- A key row is read by grid point `n` exactly when its block number (the row divided by 16384) is `n` or `n + 16`. -/
theorem mem_part (n : ℕ) (a : Fin 524288) :
    a ∈ part n ↔ n < 16 ∧ (a.val / 16384 = n ∨ a.val / 16384 = n + 16) := by
  unfold part
  split_ifs with hn
  · simp only [Finset.mem_union, Finset.mem_image, Finset.mem_univ, true_and]
    constructor
    · rintro (⟨q, rfl⟩ | ⟨q, rfl⟩)
      · refine ⟨hn, Or.inl ?_⟩
        show (16384 * n + q.val) / 16384 = n
        have := q.isLt; omega
      · refine ⟨hn, Or.inr ?_⟩
        show (16384 * (n + 16) + q.val) / 16384 = n + 16
        have := q.isLt; omega
    · rintro ⟨_, h | h⟩
      · left
        refine ⟨⟨a.val % 16384, Nat.mod_lt _ (by norm_num)⟩, Fin.ext ?_⟩
        show 16384 * n + a.val % 16384 = a.val
        omega
      · right
        refine ⟨⟨a.val % 16384, Nat.mod_lt _ (by norm_num)⟩, Fin.ext ?_⟩
        show 16384 * (n + 16) + a.val % 16384 = a.val
        omega
  · constructor
    · intro h; exact absurd h (Finset.notMem_empty a)
    · rintro ⟨h, _⟩; exact absurd h hn

/-- Different grid points read disjoint sets of key rows. -/
theorem part_disjoint : ∀ i j, i ≠ j → Disjoint (part i) (part j) := fun i j hij => by
  rw [Finset.disjoint_left]
  intro a ha hb
  obtain ⟨hi, hi'⟩ := (mem_part i a).1 ha
  obtain ⟨hj, hj'⟩ := (mem_part j a).1 hb
  omega

/-- Each of the 16 grid points reads some key row. -/
theorem part_nonempty_lt {n : ℕ} (hn : n < 16) : (part n).Nonempty :=
  ⟨col1 n hn ⟨0, by norm_num⟩, (mem_part n _).2 ⟨hn, Or.inl (by
    show (16384 * n + 0) / 16384 = n
    omega)⟩⟩

/-- The 16 grid points together read every key row. -/
theorem part_cover : (Finset.range 16).biUnion part = Finset.univ := by
  ext a
  simp only [Finset.mem_biUnion, Finset.mem_range, Finset.mem_univ, iff_true]
  have ha := a.isLt
  by_cases h : a.val / 16384 < 16
  · exact ⟨a.val / 16384, h, (mem_part _ a).2 ⟨h, Or.inl rfl⟩⟩
  · have h2 : a.val / 16384 - 16 < 16 := by omega
    exact ⟨a.val / 16384 - 16, h2, (mem_part _ a).2 ⟨h2, Or.inr (by omega)⟩⟩

/-- The two blocks of one grid point are disjoint. -/
theorem image_col_disjoint (n : ℕ) (hn : n < 16) :
    Disjoint (Finset.univ.image (col1 n hn)) (Finset.univ.image (col2 n hn)) := by
  rw [Finset.disjoint_left]
  intro a ha hb
  obtain ⟨p, _, hp⟩ := Finset.mem_image.1 ha
  obtain ⟨q, _, hq⟩ := Finset.mem_image.1 hb
  have h' : 16384 * n + p.val = 16384 * (n + 16) + q.val := congrArg Fin.val (hp.trans hq.symm)
  have := p.isLt
  omega

/-- A sum over the rows grid point `n` reads is the sum over its first block's columns plus the sum over its second's. -/
theorem sum_part {β : Type} [AddCommMonoid β] (n : ℕ) (hn : n < 16) (f : Fin 524288 → β) :
    ∑ j ∈ part n, f j = (∑ q : Fin 16384, f (col1 n hn q)) + (∑ q : Fin 16384, f (col2 n hn q)) := by
  rw [part_eq n hn, Finset.sum_union (image_col_disjoint n hn),
    Finset.sum_image (fun p _ q _ h => col1_injective n hn h),
    Finset.sum_image (fun p _ q _ h => col2_injective n hn h)]

/-- A supremum over the rows grid point `n` reads is the larger of the suprema over its two blocks' columns. -/
theorem sup_part (n : ℕ) (hn : n < 16) (f : Fin 524288 → EReal) :
    (part n).sup f
      = max (Finset.univ.sup fun q : Fin 16384 => f (col1 n hn q)) (Finset.univ.sup fun q : Fin 16384 => f (col2 n hn q)) := by
  rw [part_eq n hn, Finset.sup_union, Finset.sup_image, Finset.sup_image]
  rfl

/-! ## The real data: scores and value columns -/

open Cert.KernelIdeal Cert.KernelIdeal.Gen Cert.KernelIdeal.PayValue

/-- The real score of query row `b` against key row `j`. -/
def sc (xr : S128x64.Idx → ℝ) (Kr : S524288x64.Idx → ℝ) (b : Fin 128) (j : Fin 524288) : ℝ :=
  ∑ k : Fin 64, xr (ix2 b k) * Kr (ix2 j k)

/-- The real value of key row `j` at feature `d`. -/
def vd (Vr : S524288x64.Idx → ℝ) (d : Fin 64) (j : Fin 524288) : ℝ := Vr (ix2 j d)

/-! ## One grid point's update is one step of the recursion -/

section Step
variable (xr : S128x64.Idx → ℝ) (Kr Vr : S524288x64.Idx → ℝ) (n : ℕ) (hn : n < 16)
  (x : FVec Ideal S128x64 .f32) (k1 k2 v1 v2 : FVec Ideal S64x16384 .f32)

/-- The first score block at `(b, q)` is the real score of row `b` against the key row under column `q`. -/
theorem pay8_sc (hx : ∀ b k, x (ix2 b k) = (xr (ix2 b k) : EReal))
    (hk1 : ∀ k q, k1 (ix2 k q) = (Kr (ix2 (col1 n hn q) k) : EReal)) (b : Fin 128) (q : Fin 16384) :
    k0_pay8 (F := Ideal) x k1 (ix2 b q) = ((sc xr Kr b (col1 n hn q) : ℝ) : EReal) := by
  rw [pay8_apply]
  unfold sc
  rw [coe_sum]
  refine Finset.sum_congr rfl fun k _ => ?_
  rw [hx, hk1, EReal.coe_mul]

/-- The second score block likewise. -/
theorem pay9_sc (hx : ∀ b k, x (ix2 b k) = (xr (ix2 b k) : EReal))
    (hk2 : ∀ k q, k2 (ix2 k q) = (Kr (ix2 (col2 n hn q) k) : EReal)) (b : Fin 128) (q : Fin 16384) :
    k0_pay9 (F := Ideal) x k2 (ix2 b q) = ((sc xr Kr b (col2 n hn q) : ℝ) : EReal) := by
  rw [pay9_apply]
  unfold sc
  rw [coe_sum]
  refine Finset.sum_congr rfl fun k _ => ?_
  rw [hx, hk2, EReal.coe_mul]

/-- The new running maximum at row `b`: the old one against the supremum of the scores over the rows this grid point reads. -/
theorem pay10_sc (hx : ∀ b k, x (ix2 b k) = (xr (ix2 b k) : EReal))
    (hk1 : ∀ k q, k1 (ix2 k q) = (Kr (ix2 (col1 n hn q) k) : EReal))
    (hk2 : ∀ k q, k2 (ix2 k q) = (Kr (ix2 (col2 n hn q) k) : EReal))
    (M : FVec Ideal S128x128 .f32) (b c : Fin 128) :
    k0_pay10 (F := Ideal) x k1 k2 M (ix2 b c)
      = max (M (ix2 b c)) ((part n).sup fun j => ((sc xr Kr b j : ℝ) : EReal)) := by
  rw [pay10_apply, sup_part n hn]
  simp only [pay8_sc xr Kr n hn x k1 hx hk1 b, pay9_sc xr Kr n hn x k2 hx hk2 b]

/-- One grid point's update of (maximum, denominator, numerator) at row `b` and feature `d` is one step of the
    online recursion over the rows that grid point reads. -/
theorem step_match (hx : ∀ b k, x (ix2 b k) = (xr (ix2 b k) : EReal))
    (hk1 : ∀ k q, k1 (ix2 k q) = (Kr (ix2 (col1 n hn q) k) : EReal))
    (hk2 : ∀ k q, k2 (ix2 k q) = (Kr (ix2 (col2 n hn q) k) : EReal))
    (hv1 : ∀ d q, v1 (ix2 d q) = (Vr (ix2 (col1 n hn q) d) : EReal))
    (hv2 : ∀ d q, v2 (ix2 d q) = (Vr (ix2 (col2 n hn q) d) : EReal))
    (M L : FVec Ideal S128x128 .f32) (A : FVec Ideal S128x64 .f32) (b : Fin 128) (d : Fin 64)
    (hs : (M (ix2 b 0), L (ix2 b 0), A (ix2 b d)) = onl (sc xr Kr b) (vd Vr d) part n) :
    ( k0_pay2 (F := Ideal) (k0_pay10 (F := Ideal) x k1 k2 M) (ix2 b 0),
      k0_pay1 (F := Ideal) (k0_pay14 (F := Ideal) x k1 k2 M L) (ix2 b 0),
      k0_pay3 (F := Ideal) (k0_pay11 (F := Ideal) x k1 k2 M) (k0_pay12 (F := Ideal) x k1 k2 M)
        (k0_pay13 (F := Ideal) x k1 k2 M) v1 v2 A (ix2 b d) )
      = onl (sc xr Kr b) (vd Vr d) part (n + 1) := by
  have h1 : (onl (sc xr Kr b) (vd Vr d) part n).1 = M (ix2 b 0) := by rw [← hs]
  have h2 : (onl (sc xr Kr b) (vd Vr d) part n).2.1 = L (ix2 b 0) := by rw [← hs]
  have h3 : (onl (sc xr Kr b) (vd Vr d) part n).2.2 = A (ix2 b d) := by rw [← hs]
  have h10 := pay10_sc xr Kr n hn x k1 k2 hx hk1 hk2 M b 0
  rw [onl_succ, h1, h2, h3, ← h10, sum_part n hn, sum_part n hn]
  rw [pay2_eq, pay1_eq, pay14_apply, pay3_apply, pay11_apply]
  simp only [pay12_apply, pay13_apply, pay8_sc xr Kr n hn x k1 hx hk1 b, pay9_sc xr Kr n hn x k2 hx hk2 b, hv1, hv2]
  rfl

end Step

/-- Before the first grid point the three scratch values are the recursion's start. -/
theorem init_match (xr : S128x64.Idx → ℝ) (Kr Vr : S524288x64.Idx → ℝ) (b : Fin 128) (d : Fin 64) :
    (k0_pay5 (F := Ideal) (ix2 b 0), k0_pay6 (F := Ideal) (ix2 b 0), k0_pay7 (F := Ideal) (ix2 b d))
      = onl (sc xr Kr b) (vd Vr d) part 0 := by
  rw [pay5_eq, pay6_eq, pay7_eq, onl_zero]

end Cert.Flash.Match

end
-- ==== Proof.Match2.lean ====
/-
  The specification restated in the recursion's terms, and the end of the run: with real inputs the specification's
  entry at (row, feature) is the sum over all key rows of the normalised exponential weights of the row's real scores
  times the feature's real values, which is what the recursion yields after the 16 sets of rows; so the quotient the
  last grid point stores, numerator over denominator, is the specification's entry.
-/
import proofs.«178308_g83365315215904_cont_9to1c4b_190_37_alg».proof.Proof.Match1

noncomputable section

open scoped BigOperators

namespace Cert.Flash.Match

open Idealize.ShloMosaic Idealize.ShloMosaic.ValueIdx Cert.Flash
open Cert.KernelIdeal Cert.KernelIdeal.Gen Cert.KernelIdeal.PayValue

/-! ## The specification in the recursion's terms, and the last grid point's quotient -/

/-- With real inputs the specification's entry at (row `b`, feature `d`) is the sum over all key rows of the
    normalised exponential weights of the real scores times the real values: the recursion's result. -/
theorem spec_match (xr : S128x64.Idx → ℝ) (Kr Vr : S524288x64.Idx → ℝ) (b : Fin 128) (d : Fin 64) :
    G (fun i => (xr i : EReal)) (fun i => (Kr i : EReal)) (fun i => (Vr i : EReal)) (ix2 b d)
      = ∑ j, Ideal.div (Ideal.exp ((sc xr Kr b j : EReal) - Finset.univ.sup (fun j => (sc xr Kr b j : EReal))))
            (∑ j, Ideal.exp ((sc xr Kr b j : EReal) - Finset.univ.sup (fun j => (sc xr Kr b j : EReal))))
          * (vd Vr d j : EReal) := by
  have hsc : ∀ j, score (fun i => (xr i : EReal)) (fun i => (Kr i : EReal)) b j = ((sc xr Kr b j : ℝ) : EReal) := fun j => by
    unfold score sc
    rw [coe_sum]
    exact Finset.sum_congr rfl fun k _ => (EReal.coe_mul _ _).symm
  rw [G_ix2]
  simp only [expw, rowSum, rowMax, hsc]
  rfl

/-- After the 16th grid point the stored quotient, numerator over denominator, is the specification's entry. -/
theorem final_match (xr : S128x64.Idx → ℝ) (Kr Vr : S524288x64.Idx → ℝ)
    (M L : FVec Ideal S128x128 .f32) (A : FVec Ideal S128x64 .f32) (b : Fin 128) (d : Fin 64)
    (hs : (M (ix2 b 0), L (ix2 b 0), A (ix2 b d)) = onl (sc xr Kr b) (vd Vr d) part 16) :
    k0_pay4 (F := Ideal) A L (ix2 b d)
      = G (fun i => (xr i : EReal)) (fun i => (Kr i : EReal)) (fun i => (Vr i : EReal)) (ix2 b d) := by
  have h2 : (onl (sc xr Kr b) (vd Vr d) part 16).2.1 = L (ix2 b 0) := by rw [← hs]
  have h3 : (onl (sc xr Kr b) (vd Vr d) part 16).2.2 = A (ix2 b d) := by rw [← hs]
  rw [pay4_apply, spec_match, ← h2, ← h3]
  exact onl_final' (sc xr Kr b) (vd Vr d) part 16 part_cover part_disjoint (fun n hn => part_nonempty_lt hn)

end Cert.Flash.Match

end
-- ==== Proof.KI.KernelValue.lean ====
/-
  The kernel computes softmax attention.

  The body keeps, per query row, a running maximum of the scores, a running sum of the exponential weights and,
  per feature, a running weighted sum of the values, each relative to the running maximum. Grid point t absorbs the
  two blocks of 16384 key rows that start at rows 16384 t and 16384 (t + 16). When the three arguments are arrays of
  reals, the three running values after point n are the online recursion's triple after n + 1 blocks (by induction
  over the points: the first starts from the reset values, each later one from what the point before left), and the
  quotient the last point stores is the specification's entry. Under the precondition every entry is a real.
-/
import proofs.«178308_g83365315215904_cont_9to1c4b_190_37_alg».proof.Proof.KI.Frame
import proofs.«178308_g83365315215904_cont_9to1c4b_190_37_alg».proof.Proof.KI.Blocks
import proofs.«178308_g83365315215904_cont_9to1c4b_190_37_alg».proof.Proof.KI.Pieces
import proofs.«178308_g83365315215904_cont_9to1c4b_190_37_alg».proof.Proof.Finite
import proofs.«178308_g83365315215904_cont_9to1c4b_190_37_alg».proof.Proof.Spec
import proofs.«178308_g83365315215904_cont_9to1c4b_190_37_alg».proof.Proof.LibOnlineSoftmax
import proofs.«178308_g83365315215904_cont_9to1c4b_190_37_alg».proof.Proof.Match2

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Cert.Flash Cert.Flash.Match

variable (m : (ℓ : Loc nD τ sig) → Buf (Elt Ideal) ℓ) (c : Dev nD)
  (xr : S128x64.Idx → ℝ) (Kr Vr : S524288x64.Idx → ℝ)
  (hx : (m ((c : Thread nD τ).loc main_arg0) : S128x64.Idx → EReal) = fun i => (xr i : EReal))
  (hK : (m ((c : Thread nD τ).loc main_arg1) : S524288x64.Idx → EReal) = fun i => (Kr i : EReal))
  (hV : (m ((c : Thread nD τ).loc main_arg2) : S524288x64.Idx → EReal) = fun i => (Vr i : EReal))

include hx hK hV

/-- One grid point: if the three running values at row b and feature d, before point t, are the recursion's triple
    after t blocks, then the three the body computes from the point's five blocks are the triple after t + 1 blocks. -/
theorem step_at (t : Fin cfg0.N) (s : Scr Ideal) (b : Fin 128) (d : Fin 64)
    (hs : (s.1 (ix2 b 0), s.2.1 (ix2 b 0), s.2.2 (ix2 b d)) = onl (sc xr Kr b) (vd Vr d) part t.val) :
    ( k0_pay2 (F := Ideal) (k0_pay10 (F := Ideal) (iblk m c 0 t) (iblk m c 1 t) (iblk m c 2 t) s.1) (ix2 b 0),
      k0_pay1 (F := Ideal) (k0_pay14 (F := Ideal) (iblk m c 0 t) (iblk m c 1 t) (iblk m c 2 t) s.1 s.2.1) (ix2 b 0),
      k0_pay3 (F := Ideal) (k0_pay11 (F := Ideal) (iblk m c 0 t) (iblk m c 1 t) (iblk m c 2 t) s.1)
        (k0_pay12 (F := Ideal) (iblk m c 0 t) (iblk m c 1 t) (iblk m c 2 t) s.1)
        (k0_pay13 (F := Ideal) (iblk m c 0 t) (iblk m c 1 t) (iblk m c 2 t) s.1) (iblk m c 3 t) (iblk m c 4 t) s.2.2
        (ix2 b d) )
      = onl (sc xr Kr b) (vd Vr d) part (t.val + 1) :=
  step_match (xr := xr) (Kr := Kr) (Vr := Vr) (n := t.val) (hn := t_lt t)
    (x := iblk m c 0 t) (k1 := iblk m c 1 t) (k2 := iblk m c 2 t) (v1 := iblk m c 3 t) (v2 := iblk m c 4 t)
    (hx := fun b k => (iblk_0 m c t b k).trans (congrFun hx _))
    (hk1 := fun k q => (iblk_1 m c t k q).trans (congrFun hK _))
    (hk2 := fun k q => (iblk_2 m c t k q).trans (congrFun hK _))
    (hv1 := fun k q => (iblk_3 m c t k q).trans (congrFun hV _))
    (hv2 := fun k q => (iblk_4 m c t k q).trans (congrFun hV _))
    (M := s.1) (L := s.2.1) (A := s.2.2) (b := b) (d := d) (hs := hs)

/-- The scratch buffers after grid point n, at row b (column 0 of the two replicated buffers) and feature d, are the
    recursion's triple after n + 1 blocks. By induction on n: the first point starts from the reset values, a middle
    point and the last point from what the point before left. -/
theorem scr_inv : ∀ (n : ℕ) (hn : n < cfg0.N) (b : Fin 128) (d : Fin 64),
    ((scrAt m c n hn).1 (ix2 b 0), (scrAt m c n hn).2.1 (ix2 b 0), (scrAt m c n hn).2.2 (ix2 b d))
      = onl (sc xr Kr b) (vd Vr d) part (n + 1) := by
  intro n
  induction n with
  | zero =>
    intro hn b d
    have e : scrAt m c 0 hn = soutA m c ⟨0, hn⟩ _ _ := scrAt_A m c ⟨0, hn⟩ rfl (by decide : ¬ (0 : ℕ) = 15)
    rw [e, soutA_eq]
    exact step_at m c xr Kr Vr hx hK hV ⟨0, hn⟩ (k0_pay5 (F := Ideal), k0_pay6 (F := Ideal), k0_pay7 (F := Ideal)) b d (init_match xr Kr Vr b d)
  | succ n ih =>
    intro hn b d
    have hn' : n < cfg0.N := Nat.lt_of_succ_lt hn
    by_cases h15 : n + 1 = 15
    · have e : scrAt m c (n + 1) hn = soutC m c ⟨n + 1, hn⟩ _ _ (scrAt m c n hn') :=
        scrAt_C m c ⟨n + 1, hn⟩ (Nat.succ_ne_zero n) h15
      rw [e, soutC_eq]
      exact step_at m c xr Kr Vr hx hK hV ⟨n + 1, hn⟩ (scrAt m c n hn') b d (ih hn' b d)
    · have e : scrAt m c (n + 1) hn = soutB m c ⟨n + 1, hn⟩ _ _ (scrAt m c n hn') :=
        scrAt_B m c ⟨n + 1, hn⟩ (Nat.succ_ne_zero n) h15
      rw [e, soutB_eq]
      exact step_at m c xr Kr Vr hx hK hV ⟨n + 1, hn⟩ (scrAt m c n hn') b d (ih hn' b d)

/-- What the body leaves in the output buffer at the last grid point is softmax attention of the three arguments. -/
theorem out_value_real (t : Fin cfg0.N) (ht : t.val = 15) :
    (outAt m c t : S128x64.Idx → EReal)
      = Cert.Flash.G (fun i => (xr i : EReal)) (fun i => (Kr i : EReal)) (fun i => (Vr i : EReal)) := by
  obtain ⟨n, hn⟩ := t
  have ht' : n = 15 := ht
  subst ht'
  funext i
  obtain ⟨b, d, rfl⟩ : ∃ (b : Fin 128) (d : Fin 64), i = ix2 b d := ⟨i 0, i 1, eq_ix2 i⟩
  have h14 : 14 < cfg0.N := Nat.lt_of_succ_lt hn
  have e : outAt m c ⟨15, hn⟩ = outC m c ⟨15, hn⟩ _ _ (scrAt m c 14 h14) :=
    outAt_C m c ⟨15, hn⟩ (by decide : ¬ (15 : ℕ) = 0) rfl
  rw [e, outC_eq]
  exact final_match xr Kr Vr _ _ _ b d
    (step_at m c xr Kr Vr hx hK hV ⟨15, hn⟩ (scrAt m c 14 h14) b d (scr_inv m c xr Kr Vr hx hK hV 14 h14 b d))

omit hx hK hV

/-- The same, stated over the argument buffers: when the three arguments are arrays of reals. -/
theorem out_value (hx : (m ((c : Thread nD τ).loc main_arg0) : S128x64.Idx → EReal) = fun i => (xr i : EReal))
    (hK : (m ((c : Thread nD τ).loc main_arg1) : S524288x64.Idx → EReal) = fun i => (Kr i : EReal))
    (hV : (m ((c : Thread nD τ).loc main_arg2) : S524288x64.Idx → EReal) = fun i => (Vr i : EReal))
    (t : Fin cfg0.N) (ht : t.val = 15) :
    (outAt m c t : S128x64.Idx → EReal)
      = Cert.Flash.G (m ((c : Thread nD τ).loc main_arg0)) (m ((c : Thread nD τ).loc main_arg1))
          (m ((c : Thread nD τ).loc main_arg2)) := by
  exact (out_value_real m c xr Kr Vr hx hK hV t ht).trans
    (congr (congr (congrArg Cert.Flash.G hx.symm) hK.symm) hV.symm)

/-- Under the printed precondition (every entry of the three arguments is finite) the output buffer at the last grid
    point is softmax attention of the three arguments. -/
theorem out_value_of_pre
    (h : Cert.Pre_finite_inputs.fn (F := Ideal) (m ((c : Thread nD τ).loc main_arg0)) (m ((c : Thread nD τ).loc main_arg1))
        (m ((c : Thread nD τ).loc main_arg2)) = fun _ => 1#1)
    (t : Fin cfg0.N) (ht : t.val = 15) :
    (outAt m c t : S128x64.Idx → EReal)
      = Cert.Flash.G (m ((c : Thread nD τ).loc main_arg0)) (m ((c : Thread nD τ).loc main_arg1))
          (m ((c : Thread nD τ).loc main_arg2)) := by
  obtain ⟨xr, Kr, Vr, hx, hK, hV⟩ := Cert.Flash.Finite.real_of_pre _ _ _ h
  exact out_value m c xr Kr Vr hx hK hV t ht

/-- The same at the sixteenth grid point by its name. -/
theorem out_value_last
    (h : Cert.Pre_finite_inputs.fn (F := Ideal) (m ((c : Thread nD τ).loc main_arg0)) (m ((c : Thread nD τ).loc main_arg1))
        (m ((c : Thread nD τ).loc main_arg2)) = fun _ => 1#1) :
    (outAt m c t0_15 : S128x64.Idx → EReal)
      = Cert.Flash.G (m ((c : Thread nD τ).loc main_arg0)) (m ((c : Thread nD τ).loc main_arg1))
          (m ((c : Thread nD τ).loc main_arg2)) :=
  out_value_of_pre m c h t0_15 rfl

end Cert.KernelIdeal.Hand

end
-- ==== Proof.RefRun.lean ====
/-
  The reference program's run, read back as a pure term of the argument arrays, and its read-at-an-index
  lemmas: imported here once so that every module about the reference's value shares one import.
-/
import proofs.«178308_g83365315215904_cont_9to1c4b_190_37_alg».proof.Proof.Gen.ReferenceIdeal.Run
import proofs.«178308_g83365315215904_cont_9to1c4b_190_37_alg».proof.Proof.Gen.ReferenceIdeal.Read
-- ==== Proof.RefValue.lean ====
/-
  The reference computes softmax attention.

  The reference program transposes the keys, multiplies the queries with them, scales by one, takes each
  row's maximum from minus infinity, exponentiates the scores less that maximum, sums the exponentials over
  the keys from zero, divides, and multiplies the normalized weights with the values. Read one operation at
  a time at an index with literal coordinates, its result is the function `Cert.Flash.G` of its three arguments:
  the scale is the number one, a maximum with minus infinity changes nothing, a sum from zero is the sum, and
  the maximum over a row, a fold of `max` in the program, is the supremum over the keys.
-/
import proofs.«178308_g83365315215904_cont_9to1c4b_190_37_alg».proof.Proof.RefRun
import proofs.«178308_g83365315215904_cont_9to1c4b_190_37_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Flash

/-- The word of the scaling constant is the number one. -/
theorem one_word : Ideal.ofBits .f32 0x3F800000#32 = 1 := by
  simp [Ideal.ofBits, Ideal.ieee, -EReal.coe_mul]; norm_num

/-- The word the maximum starts from is minus infinity, the least extended real. -/
theorem bot_word : Ideal.ofBits .f32 0xFF800000#32 = ⊥ := by
  simp [Ideal.ofBits, Ideal.ieee]

/-- The scaled scores: the product of the queries with the transposed keys, times one, at (b, j) is the
    inner product of query row `b` and key row `j`. -/
theorem scores (x0 : (⟨S128x64, .f32⟩ : BufTy).Contents (Elt Ideal)) (x1 : (⟨S524288x64, .f32⟩ : BufTy).Contents (Elt Ideal))
    (b : Fin 128) (j : Fin 524288) :
    val_main_v3 (F := Ideal) x0 x1 (ix2 b j) = score x0 x1 b j := by
  rw [val_main_v3_apply, val_main_v1_apply, val_main_v2_apply, val_main_cst_apply]
  show (∑ k : Fin 64, x0 (lidx_main_v1 (ix2 b j) k) * val_main_v0 (F := Ideal) x1 (ridx_main_v1 (ix2 b j) k))
      * Ideal.ofBits .f32 0x3F800000#32 = _
  rw [one_word, mul_one]
  unfold score
  refine Finset.sum_congr rfl fun k _ => ?_
  rw [val_main_v0_apply]
  have el : lidx_main_v1 (ix2 b j) k = ix2 b k :=
    funext fun a => Fin.ext (by match a with | ⟨0, _⟩ => rfl | ⟨1, _⟩ => rfl)
  have er : idx_main_v0 (ridx_main_v1 (ix2 b j) k) = ix2 j k :=
    funext fun a => Fin.ext (by match a with | ⟨0, _⟩ => rfl | ⟨1, _⟩ => rfl)
  rw [el, er]

/-- A fold of the maximum from the least element is the supremum. -/
theorem fold_max_bot_eq_sup {ι : Type} (s : Finset ι) (f : ι → EReal) : s.fold max ⊥ f = s.sup f :=
  le_antisymm ((Finset.fold_max_le _).2 ⟨bot_le, fun _ hx => Finset.le_sup hx⟩)
    (Finset.sup_le fun x hx => (Finset.le_fold_max _).2 (Or.inr ⟨x, hx, le_rfl⟩))

/-- The query row `b` with the key row `k` put back on the reduced axis is the index (b, k). -/
theorem lift_ix2 (h : S128x524288.Reduces [1] S128) (b : Fin 128) (k : Fin 524288) :
    h.lift (ix1 b) k = ix2 b k := by
  funext c; apply Fin.ext
  fin_cases c <;> rfl

/-- The reduction of the scores by the maximum over the keys, from minus infinity, at query row `b` is the
    largest score of the row. -/
theorem rowMax_eq (x0 : (⟨S128x64, .f32⟩ : BufTy).Contents (Elt Ideal)) (x1 : (⟨S524288x64, .f32⟩ : BufTy).Contents (Elt Ideal))
    (b : Fin 128) :
    val_main_v4 (F := Ideal) x0 x1 (ix1 b) = rowMax x0 x1 b := by
  have h : S128x524288.Reduces [1] S128 := by decide
  unfold val_main_v4
  rw [Host.reduce_eq_fold_single FloatOps.maximumf _ _ reducesTo_S128x524288_S128_d1 h h_S_, val_main_cst_0_apply]
  have hf : (val_main_v3 (F := Ideal) x0 x1 ∘ h.lift (ix1 b)) = fun k : Fin 524288 => score x0 x1 b k :=
    funext fun k => by rw [Function.comp_apply, lift_ix2 h b k]; exact scores x0 x1 b k
  have hb : FloatOps.ofBits (F := Ideal) .f32 0xFF800000#32 = ⊥ := bot_word
  refine Eq.trans (congrArg₂ (fun v f => Finset.fold max v f (Finset.univ : Finset (Fin 524288))) hb hf) ?_
  exact fold_max_bot_eq_sup _ _

/-- The row maximum, joined with minus infinity and broadcast along the keys: at (b, j) it is the largest score
    of query row `b`. -/
theorem maxBcast (x0 : (⟨S128x64, .f32⟩ : BufTy).Contents (Elt Ideal)) (x1 : (⟨S524288x64, .f32⟩ : BufTy).Contents (Elt Ideal))
    (b : Fin 128) (j : Fin 524288) :
    val_main_v8 (F := Ideal) x0 x1 (ix2 b j) = rowMax x0 x1 b := by
  rw [val_main_v8_apply, val_main_v7_apply, val_main_v6_apply, val_main_v5_apply, val_main_cst_1_apply]
  have e : idx_main_v7 (idx_main_v8 (ix2 b j)) = ix1 b :=
    funext fun a => Fin.ext (by match a with | ⟨0, _⟩ => rfl)
  rw [e, rowMax_eq]
  show max (Ideal.ofBits .f32 0xFF800000#32) _ = _
  rw [bot_word]
  exact max_eq_right bot_le

/-- The exponential of the score less the row maximum, at (b, j), is the weight of key row `j` for query row `b`. -/
theorem weights (x0 : (⟨S128x64, .f32⟩ : BufTy).Contents (Elt Ideal)) (x1 : (⟨S524288x64, .f32⟩ : BufTy).Contents (Elt Ideal))
    (b : Fin 128) (j : Fin 524288) :
    val_main_v10 (F := Ideal) x0 x1 (ix2 b j) = expw x0 x1 b j := by
  rw [val_main_v10_apply, val_main_v9_apply, scores, maxBcast]
  rfl

/-- The sum of the weights over the keys, from zero, broadcast along the keys: at (b, j) it is the sum of query
    row `b`'s weights. -/
theorem sumBcast (x0 : (⟨S128x64, .f32⟩ : BufTy).Contents (Elt Ideal)) (x1 : (⟨S524288x64, .f32⟩ : BufTy).Contents (Elt Ideal))
    (b : Fin 128) (j : Fin 524288) :
    val_main_v13 (F := Ideal) x0 x1 (ix2 b j) = rowSum x0 x1 b := by
  rw [val_main_v13_apply, val_main_v12_apply, val_main_v11_apply, val_main_cst_2_apply]
  show Ideal.ofBits .f32 0x00000000#32 + _ = _
  rw [Ideal.ofBits_zero_f32, zero_add]
  unfold rowSum
  refine Finset.sum_congr rfl fun k _ => ?_
  have e : idx_main_v11 (idx_main_v12 (idx_main_v13 (ix2 b j))) k = ix2 b k :=
    funext fun a => Fin.ext (by match a with | ⟨0, _⟩ => rfl | ⟨1, _⟩ => rfl)
  rw [e, weights]

/-- The normalized weight at (b, j): the weight divided by the row's sum. -/
theorem attn (x0 : (⟨S128x64, .f32⟩ : BufTy).Contents (Elt Ideal)) (x1 : (⟨S524288x64, .f32⟩ : BufTy).Contents (Elt Ideal))
    (b : Fin 128) (j : Fin 524288) :
    val_main_v14 (F := Ideal) x0 x1 (ix2 b j) = Ideal.div (expw x0 x1 b j) (rowSum x0 x1 b) := by
  rw [val_main_v14_apply, weights, sumBcast]
  rfl

/-- The reference's result is softmax attention: the product of the normalized weights with the values. -/
theorem ref_eq (x0 : (⟨S128x64, .f32⟩ : BufTy).Contents (Elt Ideal)) (x1 x2 : (⟨S524288x64, .f32⟩ : BufTy).Contents (Elt Ideal)) :
    val_main_v15 (F := Ideal) x0 x1 x2 = G x0 x1 x2 := by
  funext i
  rw [val_main_v15_apply]
  show _ = ∑ j : Fin 524288, Ideal.div (expw x0 x1 (row i) j) (rowSum x0 x1 (row i)) * x2 (ix2 j (col i))
  refine Finset.sum_congr rfl fun k _ => ?_
  have el : lidx_main_v15 i k = ix2 (row i) k :=
    funext fun a => Fin.ext (by match a with | ⟨0, _⟩ => rfl | ⟨1, _⟩ => rfl)
  have er : ridx_main_v15 i k = ix2 k (col i) :=
    funext fun a => Fin.ext (by match a with | ⟨0, _⟩ => rfl | ⟨1, _⟩ => rfl)
  rw [el, er, attn]

section Run

open Idealize.ShloMosaic.TcCoe Idealize.SL.Sem Idealize.ShloMosaic.StableHlo

/-- The reference's run: on every device, from any memory with zero counters, every weakly fair execution
    terminates with the result buffer at softmax attention of the three argument buffers' launch contents, and
    the argument buffers unchanged. -/
theorem ref_frame_and_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v15_eq (F := Ideal) (m ((c.tc : Thread nD τ).loc main_arg0))
        (m ((c.tc : Thread nD τ).loc main_arg1)) (m ((c.tc : Thread nD τ).loc main_arg2))).trans
        (ref_eq (m ((c.tc : Thread nD τ).loc main_arg0)) (m ((c.tc : Thread nD τ).loc main_arg1))
          (m ((c.tc : Thread nD τ).loc main_arg2)))), (h c).2⟩)
    (Cert.ReferenceIdeal.Value.run (F := Ideal) m ρ)

end Run

end Cert.ReferenceIdeal.RefValue

end
-- ==== Proof.lean ====
/-
  The kernel computes softmax attention of 128 queries over a memory of 524288 key and value rows in one pass of
  sixteen grid points. At point t it multiplies the queries into columns [16384 t, 16384 (t+1)) and
  [16384 (t+16), 16384 (t+17)) of the transposed keys, and keeps, per query row, a running maximum m of the scores seen
  so far, a running normaliser l = Σ exp(s_j - m) and a running weighted sum a_d = Σ exp(s_j - m) · V_{j,d} over the
  memory rows j seen so far: a larger maximum m' rescales both by exp(m - m'). At the last point it stores a / l.
  The reference forms all 524288 scores, subtracts the row maximum M, exponentiates, divides each weight by
  L = Σ_j exp(s_j - M), and multiplies the weights into the values: Σ_j (exp(s_j - M) / L) · V_{j,d}.

  Over the extended reals the two agree when every input is finite. The scores are then reals, the running maximum
  after the last point is M, and by exp(s - m) · exp(m - m') = exp(s - m') the running sums after point t are the
  sums over the rows seen so far taken at the current maximum; the thirty-two column blocks partition the memory
  rows, so the last point holds Σ_j exp(s_j - M) · V_{j,d} and L. L is a real at least 1, so dividing the sum by L
  is dividing each term. At the first point the previous maximum is -∞ and exp(-∞) = 0 multiplies zero sums.
  Finiteness is used exactly there: moving the division by L inside the sum, and the exponential law, hold for
  reals and fail at infinities.

  Each program runs to the end without a fault and leaves its three argument arrays unchanged. For the kernel, at
  the word level and over the extended reals alike, the body is run symbolically in its three control cases (first
  point, a middle point, last point); the invariant carried between points is the contents of the three scratch
  buffers; the transposed key array and the transposed value array are each read through two windows, each window
  holding half a share of its array. The reference's run is its generated run.
-/
import proofs.«178308_g83365315215904_cont_9to1c4b_190_37_alg».proof.Defs
import proofs.«178308_g83365315215904_cont_9to1c4b_190_37_alg».proof.Proof.Gen.Kernel
import proofs.«178308_g83365315215904_cont_9to1c4b_190_37_alg».proof.Proof.Gen.KernelIdeal
import proofs.«178308_g83365315215904_cont_9to1c4b_190_37_alg».proof.Proof.Gen.ReferenceIdeal
import proofs.«178308_g83365315215904_cont_9to1c4b_190_37_alg».proof.Proof.Gen.Pre_finite_inputs
import proofs.«178308_g83365315215904_cont_9to1c4b_190_37_alg».proof.Proof.K.Run
import proofs.«178308_g83365315215904_cont_9to1c4b_190_37_alg».proof.Proof.KI.Final
import proofs.«178308_g83365315215904_cont_9to1c4b_190_37_alg».proof.Proof.KI.KernelValue
import proofs.«178308_g83365315215904_cont_9to1c4b_190_37_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_frame_and_value m ρ)

/-- The idealized kernel is the kernel's own text read over the extended reals: nothing was rewritten. -/
theorem preserves : Cert.preserves_Kernel_KernelIdeal := trivial

/-- Both programs end with the result array at softmax(x Kᵀ) V of their (agreeing, finite) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Flash.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.out_value_last m c (hpre c)), (h c).2⟩)
      (Cert.KernelIdeal.Hand.run_out (F := Ideal) m ρ)
  · refine (θ_run Cert.ReferenceIdeal.defs _ _).mono (fun _ h c => ⟨?_, (h c).2⟩)
      (Cert.ReferenceIdeal.RefValue.ref_frame_and_value m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
